-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x64 : Shape := ⟨3, ![8, 64, 64]⟩
abbrev S8x64x64x256 : Shape := ⟨4, ![8, 64, 64, 256]⟩
abbrev S256x64 : Shape := ⟨2, ![256, 64]⟩
abbrev S_ : Shape := ⟨0, ![]⟩

class Facts : Prop where
  bcast_S_S8x64x64 : S_.BroadcastsInDim S8x64x64 (![] : Fin 0 → Fin S8x64x64.rank)
  reducesTo_S8x64x64_S_d0_1_2 : S8x64x64.ReducesTo [0, 1, 2] S_
  h_S_ : 0 < S_.numel
  bcast_S_S8x64x64x256 : S_.BroadcastsInDim S8x64x64x256 (![] : Fin 0 → Fin S8x64x64x256.rank)
  reducesTo_S8x64x64x256_S_d0_1_2_3 : S8x64x64x256.ReducesTo [0, 1, 2, 3] S_
  bcast_S_S256x64 : S_.BroadcastsInDim S256x64 (![] : Fin 0 → Fin S256x64.rank)
  reducesTo_S256x64_S_d0_1 : S256x64.ReducesTo [0, 1] S_

variable [Facts]

def fn_part1 {F : FTy → Type} [FloatOps F] (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  main_v18

def fn {F : FTy → Type} [FloatOps F] (main_arg0 : FVec F S8x64x64 .f32) (main_arg1 : FVec F S8x64x64x256 .f32) (main_arg2 : FVec F S8x64x64x256 .f32) (main_arg3 : FVec F S256x64 .f32) : IVec S_ 1 :=
  let main_v0 : FVec F S8x64x64 .f32 := Host.absf main_arg0
  let main_cst : FVec F S_ .f32 := constant S_ .f32 0x7F800000#32
  let main_v1 : FVec F S8x64x64 .f32 := broadcastInDim S8x64x64 ![] bcast_S_S8x64x64 main_cst
  let main_v2 : IVec S8x64x64 1 := cmpf .olt main_v0 main_v1
  let main_c : IVec S_ 1 := constantI S_ 1 1#1
  let main_v3 : IVec S_ 1 := (fun x v => Host.reduce IntOp.andi x v reducesTo_S8x64x64_S_d0_1_2 h_S_) main_v2 main_c
  let main_v4 : FVec F S8x64x64x256 .f32 := Host.absf main_arg1
  let main_cst_0 : FVec F S_ .f32 := constant S_ .f32 0x7F800000#32
  let main_v5 : FVec F S8x64x64x256 .f32 := broadcastInDim S8x64x64x256 ![] bcast_S_S8x64x64x256 main_cst_0
  let main_v6 : IVec S8x64x64x256 1 := cmpf .olt main_v4 main_v5
  let main_c_1 : IVec S_ 1 := constantI S_ 1 1#1
  let main_v7 : IVec S_ 1 := (fun x v => Host.reduce IntOp.andi x v reducesTo_S8x64x64x256_S_d0_1_2_3 h_S_) main_v6 main_c_1
  let main_v8 : IVec S_ 1 := andi main_v3 main_v7
  let main_v9 : FVec F S8x64x64x256 .f32 := Host.absf main_arg2
  let main_cst_2 : FVec F S_ .f32 := constant S_ .f32 0x7F800000#32
  let main_v10 : FVec F S8x64x64x256 .f32 := broadcastInDim S8x64x64x256 ![] bcast_S_S8x64x64x256 main_cst_2
  let main_v11 : IVec S8x64x64x256 1 := cmpf .olt main_v9 main_v10
  let main_c_3 : IVec S_ 1 := constantI S_ 1 1#1
  let main_v12 : IVec S_ 1 := (fun x v => Host.reduce IntOp.andi x v reducesTo_S8x64x64x256_S_d0_1_2_3 h_S_) main_v11 main_c_3
  let main_v13 : IVec S_ 1 := andi main_v8 main_v12
  let main_v14 : FVec F S256x64 .f32 := Host.absf main_arg3
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_v13 main_v16
-- ==== Kernel.lean ====
abbrev S8x64x64 : Shape := ⟨3, ![8, 64, 64]⟩
abbrev S8x64x64x256 : Shape := ⟨4, ![8, 64, 64, 256]⟩
abbrev S256x64 : Shape := ⟨2, ![256, 64]⟩
abbrev S32768x256 : Shape := ⟨2, ![32768, 256]⟩
abbrev S32768x64 : Shape := ⟨2, ![32768, 64]⟩
abbrev S4096x256 : Shape := ⟨2, ![4096, 256]⟩
abbrev S4096x64 : Shape := ⟨2, ![4096, 64]⟩
abbrev S8x4096x64 : Shape := ⟨3, ![8, 4096, 64]⟩
abbrev S8x4096x256 : Shape := ⟨3, ![8, 4096, 256]⟩
abbrev S1x4096x64 : Shape := ⟨3, ![1, 4096, 64]⟩
abbrev S1x4096x256 : Shape := ⟨3, ![1, 4096, 256]⟩
abbrev S1x128x64 : Shape := ⟨3, ![1, 128, 64]⟩
abbrev S128x64 : Shape := ⟨2, ![128, 64]⟩
abbrev S1x128x256 : Shape := ⟨3, ![1, 128, 256]⟩
abbrev S128x256 : Shape := ⟨2, ![128, 256]⟩
abbrev S128x4096 : Shape := ⟨2, ![128, 4096]⟩
abbrev S128 : Shape := ⟨1, ![128]⟩
abbrev S128x1 : Shape := ⟨2, ![128, 1]⟩
abbrev S8x256x4096 : Shape := ⟨3, ![8, 256, 4096]⟩
abbrev S8x64x64x1 : Shape := ⟨4, ![8, 64, 64, 1]⟩
abbrev S_ : Shape := ⟨0, ![]⟩
abbrev S8x64x64x512 : Shape := ⟨4, ![8, 64, 64, 512]⟩

abbrev nBuf : Space → Nat
  | .hbm => 21
  | .vmem => 11
  | .smem => 0
  | _ => 0

abbrev bufTy : (tb : Table) → Fin (tcTables nBuf tb) → BufTy
  | .hbm, ⟨0, _⟩ => ⟨S8x64x64, .f32⟩
  | .hbm, ⟨1, _⟩ => ⟨S8x64x64x256, .f32⟩
  | .hbm, ⟨2, _⟩ => ⟨S8x64x64x256, .f32⟩
  | .hbm, ⟨3, _⟩ => ⟨S256x64, .f32⟩
  | .hbm, ⟨4, _⟩ => ⟨S32768x256, .f32⟩
  | .hbm, ⟨5, _⟩ => ⟨S32768x64, .f32⟩
  | .hbm, ⟨6, _⟩ => ⟨S8x4096x64, .f32⟩
  | .hbm, ⟨7, _⟩ => ⟨S8x4096x256, .f32⟩
  | .hbm, ⟨8, _⟩ => ⟨S8x4096x256, .f32⟩
  | .hbm, ⟨9, _⟩ => ⟨S8x256x4096, .f32⟩
  | .hbm, ⟨10, _⟩ => ⟨S8x64x64x256, .f32⟩
  | .hbm, ⟨11, _⟩ => ⟨S8x64x64x1, .f32⟩
  | .hbm, ⟨12, _⟩ => ⟨S8x64x64x256, .f32⟩
  | .hbm, ⟨13, _⟩ => ⟨S8x64x64x256, .f32⟩
  | .hbm, ⟨14, _⟩ => ⟨S_, .f32⟩
  | .hbm, ⟨15, _⟩ => ⟨S8x64x64x1, .f32⟩
  | .hbm, ⟨16, _⟩ => ⟨S8x64x64x1, .f32⟩
  | .hbm, ⟨17, _⟩ => ⟨S8x64x64x256, .f32⟩
  | .hbm, ⟨18, _⟩ => ⟨S8x64x64x256, .f32⟩
  | .hbm, ⟨19, _⟩ => ⟨S8x64x64x256, .f32⟩
  | .hbm, ⟨20, _⟩ => ⟨S8x64x64x512, .f32⟩
  | .local _ .vmem, ⟨0, _⟩ => ⟨S4096x256, .f32⟩
  | .local _ .vmem, ⟨1, _⟩ => ⟨S4096x256, .f32⟩
  | .local _ .vmem, ⟨2, _⟩ => ⟨S256x64, .f32⟩
  | .local _ .vmem, ⟨3, _⟩ => ⟨S4096x64, .f32⟩
  | .local _ .vmem, ⟨4, _⟩ => ⟨S4096x64, .f32⟩
  | .local _ .vmem, ⟨5, _⟩ => ⟨S1x4096x64, .f32⟩
  | .local _ .vmem, ⟨6, _⟩ => ⟨S1x4096x64, .f32⟩
  | .local _ .vmem, ⟨7, _⟩ => ⟨S1x4096x256, .f32⟩
  | .local _ .vmem, ⟨8, _⟩ => ⟨S1x4096x256, .f32⟩
  | .local _ .vmem, ⟨9, _⟩ => ⟨S1x4096x256, .f32⟩
  | .local _ .vmem, ⟨10, _⟩ => ⟨S1x4096x256, .f32⟩
  | _, _ => ⟨S8x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

@[reducible] def k1_t1_loop : Scf.Loop 32 :=
  let c0_i32 : BitVec 32 := 0#32
  let c32_i32 : BitVec 32 := 32#32
  let v7 : BitVec 32 := Scalar.addi c0_i32 c32_i32
  let c1_i32 : BitVec 32 := 1#32
  ⟨c0_i32, v7, c1_i32⟩
def k1_mult1 (k1_t1 : Fin k1_t1_loop.trips) : BitVec 32 :=
  let c0_i32_7 : BitVec 32 := 0#32
  let c0_i32 : BitVec 32 := 0#32
  let c1_i32 : BitVec 32 := 1#32
  let arg4 : BitVec 32 := Scf.iv c0_i32 c1_i32 k1_t1
  let c1_i32_6 : BitVec 32 := 1#32
  let v8 : BitVec 32 := Scalar.muli arg4 c1_i32_6
  let v9 : BitVec 32 := Scalar.addi c0_i32_7 v8
  let c128_i32 : BitVec 32 := 128#32
  let v10 : BitVec 32 := Scalar.muli v9 c128_i32
  v10
def k1_off1 (k1_t1 : Fin k1_t1_loop.trips) : Fin 3 → Nat :=
  let c0_8 : Index := 0#32
  let c0_i32_7 : BitVec 32 := 0#32
  let c0_i32 : BitVec 32 := 0#32
  let c1_i32 : BitVec 32 := 1#32
  let arg4 : BitVec 32 := Scf.iv c0_i32 c1_i32 k1_t1
  let c1_i32_6 : BitVec 32 := 1#32
  let v8 : BitVec 32 := Scalar.muli arg4 c1_i32_6
  let v9 : BitVec 32 := Scalar.addi c0_i32_7 v8
  let c128_i32 : BitVec 32 := 128#32
  let v10 : BitVec 32 := Scalar.muli v9 c128_i32
  let v11 : BitVec 32 := v10
  let v12 : Index := Scalar.indexCast v11
  let c0_9 : Index := 0#32
  ![0, v12.toNat, 0]
def k1_off2 (k1_t1 : Fin k1_t1_loop.trips) : Fin 3 → Nat :=
  let c0_10 : Index := 0#32
  let c0_i32_7 : BitVec 32 := 0#32
  let c0_i32 : BitVec 32 := 0#32
  let c1_i32 : BitVec 32 := 1#32
  let arg4 : BitVec 32 := Scf.iv c0_i32 c1_i32 k1_t1
  let c1_i32_6 : BitVec 32 := 1#32
  let v8 : BitVec 32 := Scalar.muli arg4 c1_i32_6
  let v9 : BitVec 32 := Scalar.addi c0_i32_7 v8
  let c128_i32 : BitVec 32 := 128#32
  let v10 : BitVec 32 := Scalar.muli v9 c128_i32
  let v11 : BitVec 32 := v10
  let v16 : Index := Scalar.indexCast v11
  let c0_11 : Index := 0#32
  ![0, v16.toNat, 0]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x4096x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x4096x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x4096x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S8x64x64x256_S32768x256 : S8x64x64x256.ShapeCasts S32768x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S4096x64_S4096x64_0_0 : ∀ a, (![0, 0] : Fin 2 → Nat) a + S4096x64.size a ≤ S4096x64.size a
  h_S4096x64 : 0 < S4096x64.numel
  shapeCasts_S32768x64_S8x4096x64 : S32768x64.ShapeCasts S8x4096x64
  shapeCasts_S8x64x64x256_S8x4096x256 : S8x64x64x256.ShapeCasts S8x4096x256
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  shapeCasts_S4096x256_S1x4096x256 : S4096x256.ShapeCasts S1x4096x256
  h_S1x128x64 : 0 < S1x128x64.numel
  shapeCasts_S1x128x64_S128x64 : S1x128x64.ShapeCasts S128x64
  h_S1x128x256 : 0 < S1x128x256.numel
  shapeCasts_S1x128x256_S128x256 : S1x128x256.ShapeCasts S128x256
  reduces_S128x4096_S128 : S128x4096.Reduces [1] S128
  shapeCasts_S128_S128x1 : S128.ShapeCasts S128x1
  broadcasts_S128x1_S128x4096 : S128x1.Broadcasts S128x4096
  transposes_S8x4096x256_S8x256x4096_0_2_1 : S8x4096x256.Transposes [0, 2, 1] S8x256x4096
  shapeCasts_S8x256x4096_S8x64x64x256 : S8x256x4096.ShapeCasts S8x64x64x256
  bcast_S8x64x64_S8x64x64x1_0_1_2 : S8x64x64.BroadcastsInDim S8x64x64x1 (![0, 1, 2] : Fin 3 → Fin S8x64x64x1.rank)
  bcast_S8x64x64x1_S8x64x64x256_0_1_2_3 : S8x64x64x1.BroadcastsInDim S8x64x64x256 (![0, 1, 2, 3] : Fin 4 → Fin S8x64x64x256.rank)
  bcast_S_S8x64x64x1 : S_.BroadcastsInDim S8x64x64x1 (![] : Fin 0 → Fin S8x64x64x1.rank)
  concatenates_S8x64x64x256_S8x64x64x256_S8x64x64x512_d3 : Shape.Concatenates [S8x64x64x256, S8x64x64x256] S8x64x64x512 3
  dot_S4096x256_S256x64_S4096x64_1_0_0_1_n_n_wf : DotDims.WF S4096x256 S256x64 S4096x64 [1] [0] [0] [1] [] []
  dot_S128x64_S4096x64_S128x4096_1_1_0_0_n_n_wf : DotDims.WF S128x64 S4096x64 S128x4096 [1] [1] [0] [0] [] []
  dot_S128x4096_S128x256_S4096x256_0_0_1_1_n_n_wf : DotDims.WF S128x4096 S128x256 S4096x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S32768x256.size a
  hwx0_0 : ∀ i : grid0.Coords, EltTy.bits .f32 = 32 ∨ (Rect.block (s := S32768x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x64.size a ≤ S32768x64.size a
  hwx0_2 : ∀ i : grid0.Coords, EltTy.bits .f32 = 32 ∨ (Rect.block (s := S32768x64) S4096x64.size (cc0_transform_2 i) (hinb0_2 i)).WholeWords (EltTy.packing .f32)
  hrank1 : 0 < grid1.rank
  k1_t1_ok : k1_t1_loop.OK
  k1_mult1_dvd : ∀ k1_t1 : Fin k1_t1_loop.trips, 128 ∣ (k1_mult1 k1_t1).toNat
  k1_off1_inb : ∀ k1_t1 : Fin k1_t1_loop.trips, ∀ a, (k1_off1 k1_t1) a + S1x128x64.size a ≤ S1x4096x64.size a
  k1_off2_inb : ∀ k1_t1 : Fin k1_t1_loop.trips, ∀ a, (k1_off2 k1_t1) a + S1x128x256.size a ≤ S1x4096x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x4096x64.size a ≤ S8x4096x64.size a
  hwx1_0 : ∀ i : grid1.Coords, EltTy.bits .f32 = 32 ∨ (Rect.block (s := S8x4096x64) S1x4096x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4096x256.size a ≤ S8x4096x256.size a
  hwx1_1 : ∀ i : grid1.Coords, EltTy.bits .f32 = 32 ∨ (Rect.block (s := S8x4096x256) S1x4096x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x4096x256.size a ≤ S8x4096x256.size a
  hwx1_2 : ∀ i : grid1.Coords, EltTy.bits .f32 = 32 ∨ (Rect.block (s := S8x4096x256) S1x4096x256.size (cc1_transform_2 i) (hinb1_2 i)).WholeWords (EltTy.packing .f32)

variable [Facts₀]

def dot_S4096x256_S256x64_S4096x64_1_0_0_1_n_n : DotDims S4096x256 S256x64 S4096x64 where
  lhsContracting := [1]
  rhsContracting := [0]
  lhsNonContracting := [0]
  rhsNonContracting := [1]
  lhsBatch := []
  rhsBatch := []
  wf := dot_S4096x256_S256x64_S4096x64_1_0_0_1_n_n_wf
def dot_S128x64_S4096x64_S128x4096_1_1_0_0_n_n : DotDims S128x64 S4096x64 S128x4096 where
  lhsContracting := [1]
  rhsContracting := [1]
  lhsNonContracting := [0]
  rhsNonContracting := [0]
  lhsBatch := []
  rhsBatch := []
  wf := dot_S128x64_S4096x64_S128x4096_1_1_0_0_n_n_wf
def dot_S128x4096_S128x256_S4096x256_0_0_1_1_n_n : DotDims S128x4096 S128x256 S4096x256 where
  lhsContracting := [0]
  rhsContracting := [0]
  lhsNonContracting := [1]
  rhsNonContracting := [1]
  lhsBatch := []
  rhsBatch := []
  wf := dot_S128x4096_S128x256_S4096x256_0_0_1_1_n_n_wf

abbrev win0_0 : Pipeline.Window sig grid0 :=
  Pipeline.Window.ofSpec (Memref.whole main_v0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4096x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v2) S1x4096x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x4096x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x4096x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8x64x64 : Shape := ⟨3, ![8, 64, 64]⟩
abbrev S8x64x64x256 : Shape := ⟨4, ![8, 64, 64, 256]⟩
abbrev S256x64 : Shape := ⟨2, ![256, 64]⟩
abbrev S8x64x64x64 : Shape := ⟨4, ![8, 64, 64, 64]⟩
abbrev S8x4096x64 : Shape := ⟨3, ![8, 4096, 64]⟩
abbrev S8x4096x4096 : Shape := ⟨3, ![8, 4096, 4096]⟩
abbrev S_ : Shape := ⟨0, ![]⟩
abbrev S8x4096 : Shape := ⟨2, ![8, 4096]⟩
abbrev S8x4096x1 : Shape := ⟨3, ![8, 4096, 1]⟩
abbrev S8x4096x256 : Shape := ⟨3, ![8, 4096, 256]⟩
abbrev S8x256x4096 : Shape := ⟨3, ![8, 256, 4096]⟩
abbrev S8x64x64x1 : Shape := ⟨4, ![8, 64, 64, 1]⟩
abbrev S8x64x64x512 : Shape := ⟨4, ![8, 64, 64, 512]⟩

abbrev nBuf : Space → Nat
  | .hbm => 35
  | .vmem => 0
  | .smem => 0
  | _ => 0

abbrev bufTy : (tb : Table) → Fin (tcTables nBuf tb) → BufTy
  | .hbm, ⟨0, _⟩ => ⟨S8x64x64, .f32⟩
  | .hbm, ⟨1, _⟩ => ⟨S8x64x64x256, .f32⟩
  | .hbm, ⟨2, _⟩ => ⟨S8x64x64x256, .f32⟩
  | .hbm, ⟨3, _⟩ => ⟨S256x64, .f32⟩
  | .hbm, ⟨4, _⟩ => ⟨S8x64x64x64, .f32⟩
  | .hbm, ⟨5, _⟩ => ⟨S8x4096x64, .f32⟩
  | .hbm, ⟨6, _⟩ => ⟨S8x4096x4096, .f32⟩
  | .hbm, ⟨7, _⟩ => ⟨S_, .f32⟩
  | .hbm, ⟨8, _⟩ => ⟨S8x4096, .f32⟩
  | .hbm, ⟨9, _⟩ => ⟨S_, .f32⟩
  | .hbm, ⟨10, _⟩ => ⟨S8x4096, .f32⟩
  | .hbm, ⟨11, _⟩ => ⟨S8x4096, .f32⟩
  | .hbm, ⟨12, _⟩ => ⟨S8x4096x1, .f32⟩
  | .hbm, ⟨13, _⟩ => ⟨S8x4096x4096, .f32⟩
  | .hbm, ⟨14, _⟩ => ⟨S8x4096x4096, .f32⟩
  | .hbm, ⟨15, _⟩ => ⟨S8x4096x4096, .f32⟩
  | .hbm, ⟨16, _⟩ => ⟨S_, .f32⟩
  | .hbm, ⟨17, _⟩ => ⟨S8x4096, .f32⟩
  | .hbm, ⟨18, _⟩ => ⟨S8x4096x1, .f32⟩
  | .hbm, ⟨19, _⟩ => ⟨S8x4096x4096, .f32⟩
  | .hbm, ⟨20, _⟩ => ⟨S8x4096x4096, .f32⟩
  | .hbm, ⟨21, _⟩ => ⟨S8x4096x256, .f32⟩
  | .hbm, ⟨22, _⟩ => ⟨S8x256x4096, .f32⟩
  | .hbm, ⟨23, _⟩ => ⟨S8x256x4096, .f32⟩
  | .hbm, ⟨24, _⟩ => ⟨S8x64x64x256, .f32⟩
  | .hbm, ⟨25, _⟩ => ⟨S8x64x64x1, .f32⟩
  | .hbm, ⟨26, _⟩ => ⟨S8x64x64x256, .f32⟩
  | .hbm, ⟨27, _⟩ => ⟨S8x64x64x256, .f32⟩
  | .hbm, ⟨28, _⟩ => ⟨S_, .f32⟩
  | .hbm, ⟨29, _⟩ => ⟨S8x64x64x1, .f32⟩
  | .hbm, ⟨30, _⟩ => ⟨S8x64x64x1, .f32⟩
  | .hbm, ⟨31, _⟩ => ⟨S8x64x64x256, .f32⟩
  | .hbm, ⟨32, _⟩ => ⟨S8x64x64x256, .f32⟩
  | .hbm, ⟨33, _⟩ => ⟨S8x64x64x256, .f32⟩
  | .hbm, ⟨34, _⟩ => ⟨S8x64x64x512, .f32⟩
  | _, _ => ⟨S8x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]

class Facts₀ : Prop where
  shapeCasts_S8x64x64x64_S8x4096x64 : S8x64x64x64.ShapeCasts S8x4096x64
  reducesTo_S8x4096x4096_S8x4096_d2 : S8x4096x4096.ReducesTo [2] S8x4096
  h_S_ : 0 < S_.numel
  bcast_S_S8x4096 : S_.BroadcastsInDim S8x4096 (![] : Fin 0 → Fin S8x4096.rank)
  bcast_S8x4096_S8x4096x1_0_1 : S8x4096.BroadcastsInDim S8x4096x1 (![0, 1] : Fin 2 → Fin S8x4096x1.rank)
  bcast_S8x4096x1_S8x4096x4096_0_1_2 : S8x4096x1.BroadcastsInDim S8x4096x4096 (![0, 1, 2] : Fin 3 → Fin S8x4096x4096.rank)
  shapeCasts_S8x64x64x256_S8x4096x256 : S8x64x64x256.ShapeCasts S8x4096x256
  transposes_S8x4096x256_S8x256x4096_0_2_1 : S8x4096x256.Transposes [0, 2, 1] S8x256x4096
  shapeCasts_S8x256x4096_S8x64x64x256 : S8x256x4096.ShapeCasts S8x64x64x256
  bcast_S8x64x64_S8x64x64x1_0_1_2 : S8x64x64.BroadcastsInDim S8x64x64x1 (![0, 1, 2] : Fin 3 → Fin S8x64x64x1.rank)
  bcast_S8x64x64x1_S8x64x64x256_0_1_2_3 : S8x64x64x1.BroadcastsInDim S8x64x64x256 (![0, 1, 2, 3] : Fin 4 → Fin S8x64x64x256.rank)
  bcast_S_S8x64x64x1 : S_.BroadcastsInDim S8x64x64x1 (![] : Fin 0 → Fin S8x64x64x1.rank)
  concatenates_S8x64x64x256_S8x64x64x256_S8x64x64x512_d3 : Shape.Concatenates [S8x64x64x256, S8x64x64x256] S8x64x64x512 3
  dot_S8x64x64x256_S256x64_S8x64x64x64_3_0_012_1_n_n_wf : DotDims.WF S8x64x64x256 S256x64 S8x64x64x64 [3] [0] [0, 1, 2] [1] [] []
  dot_S8x4096x64_S8x4096x64_S8x4096x4096_2_2_1_1_0_0_wf : DotDims.WF S8x4096x64 S8x4096x64 S8x4096x4096 [2] [2] [1] [1] [0] [0]
  dot_S8x256x4096_S8x4096x4096_S8x256x4096_2_1_1_2_0_0_wf : DotDims.WF S8x256x4096 S8x4096x4096 S8x256x4096 [2] [1] [1] [2] [0] [0]

variable [Facts₀]

def dot_S8x64x64x256_S256x64_S8x64x64x64_3_0_012_1_n_n : DotDims S8x64x64x256 S256x64 S8x64x64x64 where
  lhsContracting := [3]
  rhsContracting := [0]
  lhsNonContracting := [0, 1, 2]
  rhsNonContracting := [1]
  lhsBatch := []
  rhsBatch := []
  wf := dot_S8x64x64x256_S256x64_S8x64x64x64_3_0_012_1_n_n_wf
def dot_S8x4096x64_S8x4096x64_S8x4096x4096_2_2_1_1_0_0 : DotDims S8x4096x64 S8x4096x64 S8x4096x4096 where
  lhsContracting := [2]
  rhsContracting := [2]
  lhsNonContracting := [1]
  rhsNonContracting := [1]
  lhsBatch := [0]
  rhsBatch := [0]
  wf := dot_S8x4096x64_S8x4096x64_S8x4096x4096_2_2_1_1_0_0_wf
def dot_S8x256x4096_S8x4096x4096_S8x256x4096_2_1_1_2_0_0 : DotDims S8x256x4096 S8x4096x4096 S8x256x4096 where
  lhsContracting := [2]
  rhsContracting := [1]
  lhsNonContracting := [1]
  rhsNonContracting := [2]
  lhsBatch := [0]
  rhsBatch := [0]
  wf := dot_S8x256x4096_S8x4096x4096_S8x256x4096_2_1_1_2_0_0_wf

class Facts : Prop extends Facts₀ where

variable [Facts]
-- ==== Proof.KRun.lean ====
/-
  The idealized kernel's run WITH its result: every weakly fair execution of the program terminates without a fault,
  and in the final state the result array holds the contents the last host stretch leaves in it, while the four
  argument arrays are as launched. The program is five segments (a reshape; the projection as a pipeline of 8 blocks of
  4096 pixels; two reshapes; the attention pipeline, one image per grid point; the transpose, reshape, blend and
  concatenation), and the contents at each boundary are folded from the launch memory: after a host stretch its
  operations applied, after a pipeline its arrays at what the write-backs leave. The final state is read against the
  last boundary's contents at every unscoped buffer, so also at the result.
-/
import proofs.«169825_j55722905698498_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Facts₀ Cert.KernelIdeal.Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with the result: as the frame, and the result array at the last boundary's contents. -/
theorem run_result : θ_run defs (onTc (τ := τ) (main (F := F))) ⟨m, fun _ => 0, ρ⟩ (fun r => ∀ c : Dev nD,
      r.2.mem ((c.tc : Thread nD τ).loc main_v15) = W5 m ρ c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v15 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)

end Cert.KernelIdeal.Run

end
-- ==== Proof.KDots.lean ====
/-
  The kernel's three matrix products, read at an entry, on the extended reals: into a zero accumulator each is the plain
  sum over its one contracted axis of the products of the operands' entries.
    projection:           [4096, 256] x [256, 64]   contracting the channels;
    scores:               [128, 64]  x [4096, 64]   contracting the 64 query channels of BOTH operands (a product with the
                          second operand transposed);
    weighted values:      [128, 4096] x [128, 256]  contracting the 128 rows of BOTH operands (a product with the first
                          operand transposed).
-/
import proofs.«169825_j55722905698498_1_alg».proof.Proof.Gen.KernelIdeal
import Idealize.ShloMosaic.PureOps.Ideal.Laws
import Idealize.ShloMosaic.Lib.ValueIdx

noncomputable section

namespace Cert.KernelIdeal.KDots

open Cert.KernelIdeal Idealize.ShloMosaic Idealize.ShloMosaic.ValueIdx

/-- The projection: entry (a, b) is the sum over the channels k of l[a, k] * r[k, b]. -/
theorem proj_apply (l : FVec Ideal S4096x256 .bf16) (r : FVec Ideal S256x64 .bf16) (a : Fin 4096) (b : Fin 64) :
    matmul dot_S4096x256_S256x64_S4096x64_1_0_0_1_n_n none l r (constant S4096x64 .f32 0x00000000#32) (ix2 a b)
      = ∑ k : Fin 256, l (ix2 a k) * r (ix2 k b) := by
  simp only [matmul]
  rw [Ideal.matmul_constant_zero_apply, ← Equiv.sum_comp (contrEquiv1 dot_S4096x256_S256x64_S4096x64_1_0_0_1_n_n 256 rfl rfl).symm]
  refine Finset.sum_congr rfl fun k _ => ?_
  have hk := contrEquiv1_symm_val dot_S4096x256_S256x64_S4096x64_1_0_0_1_n_n 256 rfl rfl k
  have lN : ∀ q : dot_S4096x256_S256x64_S4096x64_1_0_0_1_n_n.contr.Idx, (dot_S4096x256_S256x64_S4096x64_1_0_0_1_n_n.lhsIdx (ix2 a b) q 0).val = a.val := fun q => by
    unfold DotDims.lhsIdx
    rw [dif_neg (show ¬(0 : Fin S4096x256.rank) ∈ dot_S4096x256_S256x64_S4096x64_1_0_0_1_n_n.lhsBatch by decide), dif_pos (show (0 : Fin S4096x256.rank) ∈ dot_S4096x256_S256x64_S4096x64_1_0_0_1_n_n.lhsNonContracting by decide)]
    rfl
  have rN : ∀ q : dot_S4096x256_S256x64_S4096x64_1_0_0_1_n_n.contr.Idx, (dot_S4096x256_S256x64_S4096x64_1_0_0_1_n_n.rhsIdx (ix2 a b) q 1).val = b.val := fun q => by
    unfold DotDims.rhsIdx
    rw [dif_neg (show ¬(1 : Fin S256x64.rank) ∈ dot_S4096x256_S256x64_S4096x64_1_0_0_1_n_n.rhsBatch by decide), dif_pos (show (1 : Fin S256x64.rank) ∈ dot_S4096x256_S256x64_S4096x64_1_0_0_1_n_n.rhsNonContracting by decide)]
    rfl
  have lC : ∀ q : dot_S4096x256_S256x64_S4096x64_1_0_0_1_n_n.contr.Idx, (dot_S4096x256_S256x64_S4096x64_1_0_0_1_n_n.lhsIdx (ix2 a b) q 1).val = (q ⟨0, by decide⟩).val := fun q =>
    dot_S4096x256_S256x64_S4096x64_1_0_0_1_n_n.lhsIdx_val_of_single rfl (ix2 a b) q
  have rC : ∀ q : dot_S4096x256_S256x64_S4096x64_1_0_0_1_n_n.contr.Idx, (dot_S4096x256_S256x64_S4096x64_1_0_0_1_n_n.rhsIdx (ix2 a b) q 0).val = (q ⟨0, by decide⟩).val := fun q =>
    dot_S4096x256_S256x64_S4096x64_1_0_0_1_n_n.rhsIdx_val_of_single rfl (ix2 a b) q
  have el : dot_S4096x256_S256x64_S4096x64_1_0_0_1_n_n.lhsIdx (ix2 a b) ((contrEquiv1 dot_S4096x256_S256x64_S4096x64_1_0_0_1_n_n 256 rfl rfl).symm k) = ix2 a k := funext fun x => Fin.ext (by
    match x with
    | ⟨0, _⟩ => exact lN _
    | ⟨1, _⟩ => exact (lC _).trans hk)
  have er : dot_S4096x256_S256x64_S4096x64_1_0_0_1_n_n.rhsIdx (ix2 a b) ((contrEquiv1 dot_S4096x256_S256x64_S4096x64_1_0_0_1_n_n 256 rfl rfl).symm k) = ix2 k b := funext fun x => Fin.ext (by
    match x with
    | ⟨1, _⟩ => exact rN _
    | ⟨0, _⟩ => exact (rC _).trans hk)
  rw [el, er]

/-- The scores: entry (a, b) is the sum over the query channels k of l[a, k] * r[b, k]. -/
theorem scores_apply (l : FVec Ideal S128x64 .bf16) (r : FVec Ideal S4096x64 .bf16) (a : Fin 128) (b : Fin 4096) :
    matmul dot_S128x64_S4096x64_S128x4096_1_1_0_0_n_n none l r (constant S128x4096 .f32 0x00000000#32) (ix2 a b)
      = ∑ k : Fin 64, l (ix2 a k) * r (ix2 b k) := by
  simp only [matmul]
  rw [Ideal.matmul_constant_zero_apply, ← Equiv.sum_comp (contrEquiv1 dot_S128x64_S4096x64_S128x4096_1_1_0_0_n_n 64 rfl rfl).symm]
  refine Finset.sum_congr rfl fun k _ => ?_
  have hk := contrEquiv1_symm_val dot_S128x64_S4096x64_S128x4096_1_1_0_0_n_n 64 rfl rfl k
  have lN : ∀ q : dot_S128x64_S4096x64_S128x4096_1_1_0_0_n_n.contr.Idx, (dot_S128x64_S4096x64_S128x4096_1_1_0_0_n_n.lhsIdx (ix2 a b) q 0).val = a.val := fun q => by
    unfold DotDims.lhsIdx
    rw [dif_neg (show ¬(0 : Fin S128x64.rank) ∈ dot_S128x64_S4096x64_S128x4096_1_1_0_0_n_n.lhsBatch by decide), dif_pos (show (0 : Fin S128x64.rank) ∈ dot_S128x64_S4096x64_S128x4096_1_1_0_0_n_n.lhsNonContracting by decide)]
    rfl
  have rN : ∀ q : dot_S128x64_S4096x64_S128x4096_1_1_0_0_n_n.contr.Idx, (dot_S128x64_S4096x64_S128x4096_1_1_0_0_n_n.rhsIdx (ix2 a b) q 0).val = b.val := fun q => by
    unfold DotDims.rhsIdx
    rw [dif_neg (show ¬(0 : Fin S4096x64.rank) ∈ dot_S128x64_S4096x64_S128x4096_1_1_0_0_n_n.rhsBatch by decide), dif_pos (show (0 : Fin S4096x64.rank) ∈ dot_S128x64_S4096x64_S128x4096_1_1_0_0_n_n.rhsNonContracting by decide)]
    rfl
  have lC : ∀ q : dot_S128x64_S4096x64_S128x4096_1_1_0_0_n_n.contr.Idx, (dot_S128x64_S4096x64_S128x4096_1_1_0_0_n_n.lhsIdx (ix2 a b) q 1).val = (q ⟨0, by decide⟩).val := fun q =>
    dot_S128x64_S4096x64_S128x4096_1_1_0_0_n_n.lhsIdx_val_of_single rfl (ix2 a b) q
  have rC : ∀ q : dot_S128x64_S4096x64_S128x4096_1_1_0_0_n_n.contr.Idx, (dot_S128x64_S4096x64_S128x4096_1_1_0_0_n_n.rhsIdx (ix2 a b) q 1).val = (q ⟨0, by decide⟩).val := fun q =>
    dot_S128x64_S4096x64_S128x4096_1_1_0_0_n_n.rhsIdx_val_of_single rfl (ix2 a b) q
  have el : dot_S128x64_S4096x64_S128x4096_1_1_0_0_n_n.lhsIdx (ix2 a b) ((contrEquiv1 dot_S128x64_S4096x64_S128x4096_1_1_0_0_n_n 64 rfl rfl).symm k) = ix2 a k := funext fun x => Fin.ext (by
    match x with
    | ⟨0, _⟩ => exact lN _
    | ⟨1, _⟩ => exact (lC _).trans hk)
  have er : dot_S128x64_S4096x64_S128x4096_1_1_0_0_n_n.rhsIdx (ix2 a b) ((contrEquiv1 dot_S128x64_S4096x64_S128x4096_1_1_0_0_n_n 64 rfl rfl).symm k) = ix2 b k := funext fun x => Fin.ext (by
    match x with
    | ⟨0, _⟩ => exact rN _
    | ⟨1, _⟩ => exact (rC _).trans hk)
  rw [el, er]

/-- The weighted values: entry (a, b) is the sum over the rows k of l[k, a] * r[k, b]. -/
theorem weighted_apply (l : FVec Ideal S128x4096 .bf16) (r : FVec Ideal S128x256 .bf16) (a : Fin 4096) (b : Fin 256) :
    matmul dot_S128x4096_S128x256_S4096x256_0_0_1_1_n_n none l r (constant S4096x256 .f32 0x00000000#32) (ix2 a b)
      = ∑ k : Fin 128, l (ix2 k a) * r (ix2 k b) := by
  simp only [matmul]
  rw [Ideal.matmul_constant_zero_apply, ← Equiv.sum_comp (contrEquiv1 dot_S128x4096_S128x256_S4096x256_0_0_1_1_n_n 128 rfl rfl).symm]
  refine Finset.sum_congr rfl fun k _ => ?_
  have hk := contrEquiv1_symm_val dot_S128x4096_S128x256_S4096x256_0_0_1_1_n_n 128 rfl rfl k
  have lN : ∀ q : dot_S128x4096_S128x256_S4096x256_0_0_1_1_n_n.contr.Idx, (dot_S128x4096_S128x256_S4096x256_0_0_1_1_n_n.lhsIdx (ix2 a b) q 1).val = a.val := fun q => by
    unfold DotDims.lhsIdx
    rw [dif_neg (show ¬(1 : Fin S128x4096.rank) ∈ dot_S128x4096_S128x256_S4096x256_0_0_1_1_n_n.lhsBatch by decide), dif_pos (show (1 : Fin S128x4096.rank) ∈ dot_S128x4096_S128x256_S4096x256_0_0_1_1_n_n.lhsNonContracting by decide)]
    rfl
  have rN : ∀ q : dot_S128x4096_S128x256_S4096x256_0_0_1_1_n_n.contr.Idx, (dot_S128x4096_S128x256_S4096x256_0_0_1_1_n_n.rhsIdx (ix2 a b) q 1).val = b.val := fun q => by
    unfold DotDims.rhsIdx
    rw [dif_neg (show ¬(1 : Fin S128x256.rank) ∈ dot_S128x4096_S128x256_S4096x256_0_0_1_1_n_n.rhsBatch by decide), dif_pos (show (1 : Fin S128x256.rank) ∈ dot_S128x4096_S128x256_S4096x256_0_0_1_1_n_n.rhsNonContracting by decide)]
    rfl
  have lC : ∀ q : dot_S128x4096_S128x256_S4096x256_0_0_1_1_n_n.contr.Idx, (dot_S128x4096_S128x256_S4096x256_0_0_1_1_n_n.lhsIdx (ix2 a b) q 0).val = (q ⟨0, by decide⟩).val := fun q =>
    dot_S128x4096_S128x256_S4096x256_0_0_1_1_n_n.lhsIdx_val_of_single rfl (ix2 a b) q
  have rC : ∀ q : dot_S128x4096_S128x256_S4096x256_0_0_1_1_n_n.contr.Idx, (dot_S128x4096_S128x256_S4096x256_0_0_1_1_n_n.rhsIdx (ix2 a b) q 0).val = (q ⟨0, by decide⟩).val := fun q =>
    dot_S128x4096_S128x256_S4096x256_0_0_1_1_n_n.rhsIdx_val_of_single rfl (ix2 a b) q
  have el : dot_S128x4096_S128x256_S4096x256_0_0_1_1_n_n.lhsIdx (ix2 a b) ((contrEquiv1 dot_S128x4096_S128x256_S4096x256_0_0_1_1_n_n 128 rfl rfl).symm k) = ix2 k a := funext fun x => Fin.ext (by
    match x with
    | ⟨1, _⟩ => exact lN _
    | ⟨0, _⟩ => exact (lC _).trans hk)
  have er : dot_S128x4096_S128x256_S4096x256_0_0_1_1_n_n.rhsIdx (ix2 a b) ((contrEquiv1 dot_S128x4096_S128x256_S4096x256_0_0_1_1_n_n 128 rfl rfl).symm k) = ix2 k b := funext fun x => Fin.ext (by
    match x with
    | ⟨1, _⟩ => exact rN _
    | ⟨0, _⟩ => exact (rC _).trans hk)
  rw [el, er]

end Cert.KernelIdeal.KDots

end
-- ==== Proof.ProjArr.lean ====
/-
  The projection pipeline's output array, as one function of the two arrays it reads.

  Grid point t handles pixels 4096 t .. 4096 t + 4095 (all channels) against the whole projection matrix, and writes
  back the same rows of the output. Its body is one matrix product into zeros, so entry (r, d) of the output array holds
      sum over the channels k of  pixels[r, k] * w[k, d].
  The eight blocks tile the output array.
-/
import proofs.«169825_j55722905698498_1_alg».proof.Proof.Gen.KernelIdeal.Frame
import proofs.«169825_j55722905698498_1_alg».proof.Proof.KDots
import Idealize.ShloMosaic.Lib.Pipeline.Value

set_option maxRecDepth 16384

noncomputable section

namespace Cert.KernelIdeal.ProjArr

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

/-- Entry (r, d) of the projected array. -/
def projOut (Xa : S32768x256.Idx → EReal) (Wa : S256x64.Idx → EReal) (r : Fin 32768) (d : Fin 64) : EReal :=
  ∑ k : Fin 256, Xa (ix2 r k) * Wa (ix2 k d)

/-- The projected array. -/
def G0 (Xa : S32768x256.Idx → EReal) (Wa : S256x64.Idx → EReal) : S32768x64.Idx → EReal :=
  fun i => projOut Xa Wa ⟨(i 0).val, (i 0).isLt⟩ ⟨(i 1).val, (i 1).isLt⟩

theorem hz2 : (![0, 0] : Fin 2 → Nat) = fun _ => 0 := by
  funext a; match a with | ⟨0, _⟩ => rfl | ⟨1, _⟩ => rfl

/-- The body's stored value at an entry: the product's sum (the changes of format are the identity). -/
theorem pay_apply (x0 : Vec Ideal S4096x256 .f32) (x1 : Vec Ideal S256x64 .f32) (a : Fin 4096) (d : Fin 64) :
    k0_pay1 (F := Ideal) x0 x1 (ix2 a d) = ∑ k : Fin 256, x0 (ix2 a k) * x1 (ix2 k d) := by
  unfold k0_pay1
  refine (KDots.proj_apply _ _ a d).trans (Finset.sum_congr rfl fun k _ => ?_)
  rw [truncf_apply, truncf_apply, shapeCast_self]

/-- One grid point's output block, over blocks that are rows 4096 n .. of the pixel array and the whole matrix. -/
theorem point_eq (x0 : Vec Ideal S4096x256 .f32) (x1 : Vec Ideal S256x64 .f32)
    (Xa : S32768x256.Idx → EReal) (Wa : S256x64.Idx → EReal) (r0 : ℕ) (hr0 : ∀ a : Fin 4096, r0 + a.val < 32768)
    (h0 : ∀ (a : Fin 4096) (k : Fin 256), x0 (ix2 a k) = Xa (ix2 ⟨r0 + a.val, hr0 a⟩ k))
    (h1 : ∀ (k : Fin 256) (d : Fin 64), x1 (ix2 k d) = Wa (ix2 k d))
    (a : Fin 4096) (d : Fin 64) :
    k0_pay1 (F := Ideal) x0 x1 (ix2 a d) = projOut Xa Wa ⟨r0 + a.val, hr0 a⟩ d := by
  rw [pay_apply]
  unfold projOut
  exact Finset.sum_congr rfl fun k _ => by rw [h0, h1]

variable (V : (c : Dev nD) → (b : Ref sig .tc) → Buf (Elt Ideal) ((c : Thread nD τ).loc b))

/-- The index maps over the grid: the pixel and output windows are at block (t, 0), the matrix window at (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ t.val < 8 :=
  (by decide +kernel : ∀ t : Fin grid0.N, _)

/-- What point t writes back is block t of the projected array. -/
theorem flushed_eq (c : Dev nD) (t : Fin cfg0.N) :
    (dat0 V c).flushed 2 t = ((cfg0.win 2).blk t).view.read (Elt Ideal) (G0 (V c main_v0) (V c main_arg3)) := by
  show (cfg0.win 2).cut (grid0.coords t) ((dat0 V c).after 2 t) = _
  rw [after0_2]
  unfold out0_2
  rw [View.canon_unit_zero hz2]
  simp only [View.ld_unit_zero (S := S4096x256) hz2, View.ld_unit_zero (S := S256x64) hz2]
  obtain ⟨e00, e01, e10, e11, e20, e21, ht⟩ := idx_facts t
  funext y
  show k0_pay1 (F := Ideal) (iblk0 V c 0 t) (iblk0 V c 1 t) y = G0 (V c main_v0) (V c main_arg3) (((cfg0.win 2).blk t).view.emb y)
  have hy : y = ix2 (y 0) (y 1) := eq_ix2 y
  rw [hy]
  have hy0 : (y 0).val < 4096 := (y 0).isLt
  have hy1 : (y 1).val < 64 := (y 1).isLt
  refine (point_eq _ _ (V c main_v0) (V c main_arg3) (4096 * t.val) (fun a => by have := a.isLt; omega) ?_ ?_ (y 0) (y 1)).trans ?_
  · intro a k
    show V c main_v0 (((cfg0.win 0).blk t).view.emb (ix2 a k)) = V c main_v0 (ix2 ⟨4096 * t.val + a.val, _⟩ k)
    refine congrArg (V c main_v0) (funext fun x => Fin.ext ?_)
    match x with
    | ⟨0, _⟩ => show win0_0.index t (0 : Fin 2) * 4096 + 1 * a.val = 4096 * t.val + a.val; omega
    | ⟨1, _⟩ => show win0_0.index t (1 : Fin 2) * 256 + 1 * k.val = k.val; omega
  · intro k d
    show V c main_arg3 (((cfg0.win 1).blk t).view.emb (ix2 k d)) = V c main_arg3 (ix2 k d)
    refine congrArg (V c main_arg3) (funext fun x => Fin.ext ?_)
    match x with
    | ⟨0, _⟩ => show win0_1.index t (0 : Fin 2) * 256 + 1 * k.val = k.val; omega
    | ⟨1, _⟩ => show win0_1.index t (1 : Fin 2) * 64 + 1 * d.val = d.val; omega
  · unfold G0
    have a0 : ((((cfg0.win 2).blk t).view.emb (ix2 (y 0) (y 1))) 0).val = 4096 * t.val + (y 0).val := by
      show win0_2.index t (0 : Fin 2) * 4096 + 1 * (y 0).val = 4096 * t.val + (y 0).val; omega
    have a1 : ((((cfg0.win 2).blk t).view.emb (ix2 (y 0) (y 1))) 1).val = (y 1).val := by
      show win0_2.index t (1 : Fin 2) * 64 + 1 * (y 1).val = (y 1).val; omega
    exact congr (congrArg (projOut (V c main_v0) (V c main_arg3)) (Fin.ext a0.symm)) (Fin.ext a1.symm)

/-- An index of the projected array is in point t's block iff its coordinates are in the block's ranges. -/
theorem mem_blk (t : Fin cfg0.N) (i : S32768x64.Idx) :
    i ∈ ((cfg0.win 2).blk t).view.set ↔ ∀ a : Fin 2, win0_2.index t a * S4096x64.size a ≤ (i a).val ∧ (i a).val < win0_2.index t a * S4096x64.size a + S4096x64.size a := by
  show i ∈ ((View.whole main_v1).slice (win0_2.rect t)).set ↔ _
  rw [View.set_slice_whole, Rect.mem_set_unit]
  exact Iff.rfl

/-- Every index of the projected array is in some point's block: the point of its row. -/
theorem cover (i : S32768x64.Idx) :
    ∃ t : Fin cfg0.N, (cfg0.win 2).flush t = true ∧ i ∈ ((cfg0.win 2).blk t).view.set := by
  have hi0 : (i 0).val < 32768 := (i 0).isLt
  have hi1 : (i 1).val < 64 := (i 1).isLt
  have hN : (i 0).val / 4096 < cfg0.N := by show (i 0).val / 4096 < grid0.N; rw [N_0]; omega
  refine ⟨⟨(i 0).val / 4096, hN⟩, flush0_2 _, ?_⟩
  rw [mem_blk]
  obtain ⟨-, -, -, -, e20, e21, -⟩ := idx_facts ⟨(i 0).val / 4096, hN⟩
  intro a
  match a with
  | ⟨0, _⟩ => show win0_2.index _ (0 : Fin 2) * 4096 ≤ (i 0).val ∧ (i 0).val < win0_2.index _ (0 : Fin 2) * 4096 + 4096; rw [e20]; show (i 0).val / 4096 * 4096 ≤ (i 0).val ∧ (i 0).val < (i 0).val / 4096 * 4096 + 4096; omega
  | ⟨1, _⟩ => show win0_2.index _ (1 : Fin 2) * 64 ≤ (i 1).val ∧ (i 1).val < win0_2.index _ (1 : Fin 2) * 64 + 64; rw [e21]; omega

/-- The projected array after the pipeline. -/
theorem final (c : Dev nD) : (dat0 V c).arrAt 2 cfg0.N = G0 (V c main_v0) (V c main_arg3) :=
  (dat0 V c).arrAt_eq_of_cover 2 (G0 (V c main_v0) (V c main_arg3)) (fun t _ => flushed_eq V c t) cover

end Cert.KernelIdeal.ProjArr

end
-- ==== Proof.AttnLoop.lean ====
/-
  The attention kernel's body at one grid point, as a recurrence.

  The body first stores zeros into the whole output block, then makes 32 trips; trip k loads rows 128 k .. 128 k + 127
  of the query block and of the value block, computes from them and from the whole query block a 4096 x 256
  contribution, and stores (what the output block held) + (that contribution) back into the whole block. So what the
  block holds after the trips is the last term of the recurrence
      acc 0 = zeros,    acc (k + 1) = step k (acc k),
  where step k is the trip's stored value as a function of the block's previous contents. This module proves exactly
  that, for any float type: every store covers the whole block, so reading the block back after a list of stores gives
  the value of the latest store, and the value a trip loads from the block is what the earlier stores left there.
-/
import proofs.«169825_j55722905698498_1_alg».proof.Proof.Gen.KernelIdeal.Frame
import Idealize.ShloMosaic.Lib.Pipeline.Value

set_option maxRecDepth 65536

noncomputable section

namespace Cert.KernelIdeal.AttnLoop

open Cert.KernelIdeal Cert.KernelIdeal.Gen
open Idealize.ShloMosaic Idealize.ShloMosaic.TcCoe Idealize.ShloMosaic.Tactic
open Idealize.SL Idealize.SL.Sem

variable {F : FTy → Type} [FloatOps F]

/-- The 128 query rows trip k loads. -/
def qrows (x0 : Vec F S1x4096x64 .f32) (k : Fin k1_t1_loop.trips) : Vec F S1x128x64 .f32 :=
  View.ld x0 (Rect.unit (s := S1x4096x64) (k1_off1 k) S1x128x64.size (k1_off1_inb k))

/-- The 128 value rows trip k loads. -/
def vrows (x1 : Vec F S1x4096x256 .f32) (k : Fin k1_t1_loop.trips) : Vec F S1x128x256 .f32 :=
  View.ld x1 (Rect.unit (s := S1x4096x256) (k1_off2 k) S1x128x256.size (k1_off2_inb k))

/-- The output block after k trips. -/
def acc (x0 : Vec F S1x4096x64 .f32) (x1 : Vec F S1x4096x256 .f32) : ℕ → Vec F S1x4096x256 .f32
  | 0 => k1_pay1
  | k + 1 =>
    if h : k < k1_t1_loop.trips then k1_pay2 x0 (qrows x0 ⟨k, h⟩) (vrows x1 ⟨k, h⟩) (acc x0 x1 k) else acc x0 x1 k

theorem acc_zero (x0 : Vec F S1x4096x64 .f32) (x1 : Vec F S1x4096x256 .f32) : acc x0 x1 0 = k1_pay1 := rfl

theorem acc_succ (x0 : Vec F S1x4096x64 .f32) (x1 : Vec F S1x4096x256 .f32) (k : ℕ) (h : k < k1_t1_loop.trips) :
    acc x0 x1 (k + 1) = k1_pay2 x0 (qrows x0 ⟨k, h⟩) (vrows x1 ⟨k, h⟩) (acc x0 x1 k) := by
  rw [acc, dif_pos h]

theorem acc_succ_ge (x0 : Vec F S1x4096x64 .f32) (x1 : Vec F S1x4096x256 .f32) (k : ℕ) (h : ¬ k < k1_t1_loop.trips) :
    acc x0 x1 (k + 1) = acc x0 x1 k := by
  rw [acc, dif_neg h]

/-- The offsets of the whole-block rectangle are zero. -/
theorem hz3 : (![0, 0, 0] : Fin 3 → Nat) = fun _ => 0 := by
  funext a; match a with | ⟨0, _⟩ => rfl | ⟨1, _⟩ => rfl | ⟨2, _⟩ => rfl

/-- The zero store, as a piece: the whole block at the zero payload. -/
def zeroPiece : View.Piece (Elt F) S1x4096x256 .f32 :=
  ⟨Rect.unit (s := S1x4096x256) ![0, 0, 0] S1x4096x256.size inb_S1x4096x256_S1x4096x256_0_0_0, k1_pay1⟩

theorem zeroPiece_mem : (zeroPiece (F := F)) ∈ (kernelRun1_A.sl.H2_1 (F := F)) := by
  unfold kernelRun1_A.sl.H2_1 zeroPiece; exact List.mem_singleton_self _

/-- Reading the output block after the zero store and the first k trips' stores gives the k-th term. -/
theorem canon_pb (c : Dev nD) (i : grid1.Coords) (arg1 : Memref sig .tc .vmem S1x4096x64 .f32) (harg1 : arg1.IsWhole)
    (arg2 : Memref sig .tc .vmem S1x4096x256 .f32) (harg2 : arg2.IsWhole)
    (arg3 : Memref sig .tc .vmem S1x4096x256 .f32) (harg3 : arg3.IsWhole)
    (x0 : Vec F S1x4096x64 .f32) (x1 : Vec F S1x4096x256 .f32)
    (v0 : Vec F S1x4096x64 .f32) (X1 : BufTy.Contents (Elt F) arg1.view.ty) (X2 : BufTy.Contents (Elt F) arg2.view.ty)
    (hv0 : v0 = x0) (h1 : arg1.view.read (Elt F) X1 = x0) (h2 : arg2.view.read (Elt F) X2 = x1) (k : ℕ) :
    View.canon (pb_k1_t1 (F := F) Variants.none c none i arg1 harg1 arg2 harg2 arg3 harg3 v0 X1 X2
        (arg3.view.writes (Elt F) arg3.view.junk kernelRun1_A.sl.H2_1) k ++ kernelRun1_A.sl.H2_1)
      = acc x0 x1 k := by
  induction k with
  | zero =>
    rw [pb_k1_t1.eq_1, List.nil_append, acc_zero]
    unfold kernelRun1_A.sl.H2_1
    exact View.canon_unit_zero hz3 _ _
  | succ k ih =>
    rw [pb_k1_t1.eq_2]; unfold pb_k1_t1Step
    by_cases h : k < k1_t1_loop.trips
    · rw [dif_pos h, acc_succ x0 x1 k h]
      unfold tripL_k1_t1 trip_k1_t1
      dsimp only
      rw [List.append_assoc, List.singleton_append]
      refine (View.canon_cons_unit_zero (S := S1x4096x256) hz3 _ _ _).trans ?_
      subst hv0
      refine congr (congr (congrArg (k1_pay2 v0) ?_) ?_) ?_
      · rw [View.readAt_eq_ld, h1]; rfl
      · rw [View.readAt_eq_ld, h2]; rfl
      · rw [View.readAt_eq_ld]
        refine (View.ld_unit_zero (S := S1x4096x256) hz3 _ _).trans ?_
        rw [← View.writes_append]
        refine (View.read_writes_eq_canon _ _ _ ?_).trans ih
        intro y
        exact ⟨zeroPiece, List.mem_append_right _ zeroPiece_mem, View.mem_set_unit_zero (S := S1x4096x256) hz3 inb_S1x4096x256_S1x4096x256_0_0_0 y⟩
    · rw [dif_neg h, acc_succ_ge x0 x1 k h]; exact ih

/-- What the body leaves in the output block: the recurrence's last term. -/
theorem out_eq (c : Dev nD) (i : grid1.Coords) (arg1 : Memref sig .tc .vmem S1x4096x64 .f32) (harg1 : arg1.IsWhole)
    (arg2 : Memref sig .tc .vmem S1x4096x256 .f32) (harg2 : arg2.IsWhole)
    (arg3 : Memref sig .tc .vmem S1x4096x256 .f32) (harg3 : arg3.IsWhole)
    (x0 : Vec F S1x4096x64 .f32) (x1 : Vec F S1x4096x256 .f32) :
    out1_A_2 (F := F) c i arg1 harg1 arg2 harg2 arg3 harg3 x0 x1 = acc x0 x1 k1_t1_loop.trips := by
  unfold out1_A_2
  rw [View.read_writes_eq_canon _ _ _ (cover1_A_2 c i arg1 harg1 arg2 harg2 arg3 harg3 x0 x1)]
  unfold kernelRun1_A
  dsimp only
  exact canon_pb c i arg1 harg1 arg2 harg2 arg3 harg3 x0 x1 _ _ _
    (by rw [View.readAt_eq_ld, harg1.read_unread]; exact View.ld_unit_zero (S := S1x4096x64) hz3 _ _)
    (harg1.read_unread x0) (harg2.read_unread x1) _

end Cert.KernelIdeal.AttnLoop

end
-- ==== Proof.Spec.lean ====
/-
  The mathematics of the certificate, free of either program.

  Input: a feature map x[n, h, w, c] (8 images of 64 x 64 pixels, 256 channels) and a projection w[c, d] to 64
  channels. Write p = 64 h + w for a pixel's position in row-major order (4096 of them). Then
    query  n p d = sum over c of x[n, p, c] * w[c, d]
    gram   n p q = sum over d of query n p d * query n q d
    att    n p q = exp (gram n p q - M) / (sum over q' of exp (gram n p q' - M)),  M the maximum of row p of the Gram matrix
    attT   n c q = sum over p of x[n, p, c] * att n p q
  all on the extended reals, the maximum taken as both programs take it: a fold of max from minus infinity, joined
  with minus infinity once more.

  The last section is the one law of sums the certificate needs: a sum over 4096 positions taken in consecutive
  blocks of 128, each block added to a running total, is the whole sum. It uses only that addition on the extended
  reals is commutative and associative with unit zero, so no finiteness of any input is needed.
-/
import Idealize.ShloMosaic.PureOps.Ideal
import Idealize.ShloMosaic.PureOps.Ideal.Laws
import Idealize.ShloMosaic.Lib.ValueIdx

noncomputable section

namespace Attn

open Idealize.ShloMosaic Idealize.ShloMosaic.ValueIdx

/-- The feature map's shape, the projection's, and the transposed attention output's. -/
abbrev SX : Shape := ⟨4, ![8, 64, 64, 256]⟩
abbrev SW : Shape := ⟨2, ![256, 64]⟩
abbrev ST : Shape := ⟨3, ![8, 256, 4096]⟩

/-- Row and column of pixel p in its 64 x 64 image. -/
def prow (p : Fin 4096) : Fin 64 := ⟨p.val / 64, by have := p.isLt; omega⟩
def pcol (p : Fin 4096) : Fin 64 := ⟨p.val % 64, by omega⟩

/-- Channel c of pixel p of image n. -/
def pix (x : SX.Idx → EReal) (n : Fin 8) (p : Fin 4096) (c : Fin 256) : EReal :=
  x (ix4 n (prow p) (pcol p) c)

/-- The projected query of pixel p. -/
def qry (x : SX.Idx → EReal) (w : SW.Idx → EReal) (n : Fin 8) (p : Fin 4096) (d : Fin 64) : EReal :=
  ∑ c : Fin 256, pix x n p c * w (ix2 c d)

/-- The Gram matrix of the queries of image n. -/
def gram (x : SX.Idx → EReal) (w : SW.Idx → EReal) (n : Fin 8) (p q : Fin 4096) : EReal :=
  ∑ d : Fin 64, qry x w n p d * qry x w n q d

/-- Minus infinity, as the float word both programs start their maximum from. -/
def ninf : EReal := Ideal.ofBits .f32 0xFF800000#32

/-- The maximum of row p of the Gram matrix. -/
def rmax (x : SX.Idx → EReal) (w : SW.Idx → EReal) (n : Fin 8) (p : Fin 4096) : EReal :=
  max ninf ((Finset.univ : Finset (Fin 4096)).fold max ninf (gram x w n p))

/-- The shifted exponential. -/
def ex (x : SX.Idx → EReal) (w : SW.Idx → EReal) (n : Fin 8) (p q : Fin 4096) : EReal :=
  Ideal.exp (gram x w n p q - rmax x w n p)

/-- Row p of the attention map: the softmax of row p of the Gram matrix. -/
def att (x : SX.Idx → EReal) (w : SW.Idx → EReal) (n : Fin 8) (p q : Fin 4096) : EReal :=
  Ideal.div (ex x w n p q) (∑ q' : Fin 4096, ex x w n p q')

/-- The attention output, channels before positions: attT n c q = sum over p of x[n, p, c] * att n p q. -/
def attT (x : SX.Idx → EReal) (w : SW.Idx → EReal) : ST.Idx → EReal :=
  fun i => ∑ p : Fin 4096, pix x (i 0) p (i 1) * att x w (i 0) p (i 2)

/-! ## A sum taken block by block -/

section Blocks

variable {M : Type*} [AddCommMonoid M]

/-- A function on the first 4096 naturals, zero beyond. -/
def ext (g : Fin 4096 → M) (p : ℕ) : M := if h : p < 4096 then g ⟨p, h⟩ else 0

theorem ext_val (g : Fin 4096 → M) (p : Fin 4096) : ext g p.val = g p := by
  unfold ext; rw [dif_pos p.isLt]

/-- The whole sum is the sum over the first 4096 naturals. -/
theorem sum_eq_range (g : Fin 4096 → M) : ∑ p : Fin 4096, g p = ∑ p ∈ Finset.range 4096, ext g p := by
  rw [← Fin.sum_univ_eq_sum_range (ext g) 4096]
  exact Finset.sum_congr rfl fun p _ => (ext_val g p).symm

/-- One more block of 128: the sum over the first 128 k positions plus block k is the sum over the first
    128 (k + 1). -/
theorem range_add_block (f : ℕ → M) (k : ℕ) :
    (∑ p ∈ Finset.range (128 * k), f p) + ∑ j : Fin 128, f (128 * k + j.val)
      = ∑ p ∈ Finset.range (128 * (k + 1)), f p := by
  rw [Nat.mul_succ, Finset.sum_range_add, Fin.sum_univ_eq_sum_range (fun j => f (128 * k + j)) 128]

end Blocks

end Attn

end
-- ==== Proof.AttnStep.lean ====
/-
  One trip of the attention kernel, on the extended reals, entry by entry.

  A trip holds the whole query block x0 (4096 rows of 64), 128 of its rows qv, the matching 128 value rows vv (256
  channels) and the output block's previous contents a. It forms the 128 x 4096 scores  s[j, q] = sum over d of
  qv[j, d] * x0[q, d], takes the softmax of each of the 128 rows over its 4096 entries (the maximum of the row,
  joined with minus infinity; the exponentials of the differences; their sum; the quotients), and adds to a[q, c] the
  sum over the 128 rows j of  softmax[j, q] * vv[j, c].  The changes of float format in between are the identity here.
-/
import proofs.«169825_j55722905698498_1_alg».proof.Proof.Gen.KernelIdeal.Skeleton
import proofs.«169825_j55722905698498_1_alg».proof.Proof.KDots
import proofs.«169825_j55722905698498_1_alg».proof.Proof.Spec
import Idealize.ShloMosaic.Lib.Pipeline.Value
import Idealize.ShloMosaic.Lib.ValueIdx
import Idealize.ShloMosaic.PureOps.Ideal.Laws

noncomputable section

namespace Cert.KernelIdeal.AttnStep

open Cert.KernelIdeal Cert.KernelIdeal.Gen Idealize.ShloMosaic Idealize.ShloMosaic.ValueIdx

/-! ## Two casts between a block with a leading unit axis and the matrix under it -/

theorem drop3 {n1 n2 : Nat} {α : Type} (v : (⟨3, ![1, n1, n2]⟩ : Shape).Idx → α)
    (h : (⟨3, ![1, n1, n2]⟩ : Shape).ShapeCasts ⟨2, ![n1, n2]⟩) (a : Fin n1) (b : Fin n2) :
    shapeCast ⟨2, ![n1, n2]⟩ v h (ix2 a b) = v (ix3 0 a b) :=
  (shapeCast_dropUnit_apply ![n1, n2] v h (ix2 a b)).trans
    (congrArg v (funext fun x => by match x with | ⟨0, _⟩ => rfl | ⟨1, _⟩ => rfl | ⟨2, _⟩ => rfl))

theorem add3 {n1 n2 : Nat} {α : Type} (v : (⟨2, ![n1, n2]⟩ : Shape).Idx → α)
    (h : (⟨2, ![n1, n2]⟩ : Shape).ShapeCasts ⟨3, ![1, n1, n2]⟩) (z : Fin 1) (a : Fin n1) (b : Fin n2) :
    shapeCast ⟨3, ![1, n1, n2]⟩ v h (ix3 z a b) = v (ix2 a b) :=
  (shapeCast_addUnit_apply ![n1, n2] v h (ix3 z a b)).trans
    (congrArg v (funext fun x => by match x with | ⟨0, _⟩ => rfl | ⟨1, _⟩ => rfl))

/-! ## The trip's intermediate values, named -/

/-- The scores of the 128 loaded rows against all 4096 rows. -/
def scoresV (x0 : Vec Ideal S1x4096x64 .f32) (qv : Vec Ideal S1x128x64 .f32) : FVec Ideal S128x4096 .f32 :=
  matmul dot_S128x64_S4096x64_S128x4096_1_1_0_0_n_n none
    (truncf .bf16 (shapeCast S128x64 qv shapeCasts_S1x128x64_S128x64) bitsLt_bf16_f32)
    (truncf .bf16 (shapeCast S4096x64 x0 shapeCasts_S1x4096x64_S4096x64) bitsLt_bf16_f32)
    (constant S128x4096 .f32 0x00000000#32)

/-- A value per row, repeated along the row. -/
def colV (v : FVec Ideal S128 .f32) : FVec Ideal S128x4096 .f32 :=
  broadcastTo S128x4096 (shapeCast S128x1 v shapeCasts_S128_S128x1) broadcasts_S128x1_S128x4096

/-- Each row's maximum, joined with minus infinity. -/
def rowMaxV (S : FVec Ideal S128x4096 .f32) : FVec Ideal S128 .f32 :=
  maximumf (broadcast S128 (Scalar.ofBits .f32 0xFF800000#32))
    (multiReduction .maximumf [1] S128 S 0xFF800000#32 reduces_S128x4096_S128 (.inl rfl) rfl)

/-- The exponentials of the scores less their row's maximum. -/
def expV (S : FVec Ideal S128x4096 .f32) : FVec Ideal S128x4096 .f32 := exp (subf S (colV (rowMaxV S)))

/-- Each row's sum. -/
def rowSumV (E : FVec Ideal S128x4096 .f32) : FVec Ideal S128 .f32 :=
  multiReduction .add [1] S128 E 0x00000000#32 reduces_S128x4096_S128 (.inl rfl) rfl

/-- The softmax of each row. -/
def softV (S : FVec Ideal S128x4096 .f32) : FVec Ideal S128x4096 .f32 := divf (expV S) (colV (rowSumV (expV S)))

/-- The trip's stored value is these, composed. -/
theorem pay2_eq (x0 : Vec Ideal S1x4096x64 .f32) (qv : Vec Ideal S1x128x64 .f32) (vv : Vec Ideal S1x128x256 .f32)
    (a : Vec Ideal S1x4096x256 .f32) :
    k1_pay2 (F := Ideal) x0 qv vv a
      = shapeCast S1x4096x256
          (addf (shapeCast S4096x256 a shapeCasts_S1x4096x256_S4096x256)
            (matmul dot_S128x4096_S128x256_S4096x256_0_0_1_1_n_n none
              (truncf .bf16 (softV (scoresV x0 qv)) bitsLt_bf16_f32)
              (truncf .bf16 (shapeCast S128x256 vv shapeCasts_S1x128x256_S128x256) bitsLt_bf16_f32)
              (constant S4096x256 .f32 0x00000000#32)))
          shapeCasts_S4096x256_S1x4096x256 := rfl

/-! ## Each read at an entry -/

theorem scoresV_apply (x0 : Vec Ideal S1x4096x64 .f32) (qv : Vec Ideal S1x128x64 .f32) (j : Fin 128) (q : Fin 4096) :
    scoresV x0 qv (ix2 j q) = ∑ d : Fin 64, qv (ix3 0 j d) * x0 (ix3 0 q d) := by
  unfold scoresV
  refine (KDots.scores_apply _ _ j q).trans (Finset.sum_congr rfl fun d _ => ?_)
  rw [truncf_apply, truncf_apply]
  exact congr (congrArg _ (drop3 qv _ j d)) (drop3 x0 _ q d)

theorem colV_apply (v : FVec Ideal S128 .f32) (j : Fin 128) (q : Fin 4096) : colV v (ix2 j q) = v (ix1 j) := by
  unfold colV
  refine (broadcastTo_apply _ _ (ix2 j q) (ix2 j (0 : Fin 1)) ?_).trans ?_
  · intro a; match a with
    | ⟨0, _⟩ => rfl
    | ⟨1, _⟩ => rfl
  · refine shapeCast_apply _ _ (ix2 j (0 : Fin 1)) (ix1 j) ?_
    rw [Shape.rowMajor_val_one, Shape.rowMajor_val_two]
    show j.val = j.val * 1 + 0
    omega

theorem rowMaxV_apply (S : FVec Ideal S128x4096 .f32) (j : Fin 128) :
    rowMaxV S (ix1 j) = max Attn.ninf ((Finset.univ : Finset (Fin 4096)).fold max Attn.ninf fun q => S (ix2 j q)) := by
  unfold rowMaxV
  rw [maximumf_apply, broadcast_apply]
  refine congrArg (max _) ?_
  refine (Ideal.multiReduction_maximumf_single S 0xFF800000#32 reduces_S128x4096_S128 _ _ (ix1 j)).trans ?_
  refine congrArg (Finset.fold max _ · _) ?_
  funext q
  exact congrArg S (funext fun x => by match x with | ⟨0, _⟩ => rfl | ⟨1, _⟩ => rfl)

theorem rowSumV_apply (E : FVec Ideal S128x4096 .f32) (j : Fin 128) :
    rowSumV E (ix1 j) = ∑ q : Fin 4096, E (ix2 j q) := by
  unfold rowSumV
  refine (Ideal.multiReduction_add_single E 0x00000000#32 reduces_S128x4096_S128 _ _ (ix1 j)).trans ?_
  refine Finset.sum_congr rfl fun q _ => ?_
  exact congrArg E (funext fun x => by match x with | ⟨0, _⟩ => rfl | ⟨1, _⟩ => rfl)

theorem expV_apply (S : FVec Ideal S128x4096 .f32) (j : Fin 128) (q : Fin 4096) :
    expV S (ix2 j q) = Ideal.exp (S (ix2 j q) - rowMaxV S (ix1 j)) := by
  unfold expV
  show Ideal.exp (subf S (colV (rowMaxV S)) (ix2 j q)) = _
  rw [subf_apply, colV_apply]

theorem softV_apply (S : FVec Ideal S128x4096 .f32) (j : Fin 128) (q : Fin 4096) :
    softV S (ix2 j q) = Ideal.div (expV S (ix2 j q)) (∑ q' : Fin 4096, expV S (ix2 j q')) := by
  unfold softV
  rw [divf_apply, colV_apply, rowSumV_apply]

/-- The trip's stored value at entry (q, c): the previous contents there plus the 128 rows' weighted values. -/
theorem step_apply (x0 : Vec Ideal S1x4096x64 .f32) (qv : Vec Ideal S1x128x64 .f32) (vv : Vec Ideal S1x128x256 .f32)
    (a : Vec Ideal S1x4096x256 .f32) (z : Fin 1) (q : Fin 4096) (c : Fin 256) :
    k1_pay2 (F := Ideal) x0 qv vv a (ix3 z q c)
      = a (ix3 0 q c) + ∑ j : Fin 128, softV (scoresV x0 qv) (ix2 j q) * vv (ix3 0 j c) := by
  rw [pay2_eq]
  refine (add3 _ _ z q c).trans ?_
  rw [addf_apply]
  refine congr (congrArg _ (drop3 a _ q c)) ?_
  refine (KDots.weighted_apply _ _ q c).trans (Finset.sum_congr rfl fun j _ => ?_)
  rw [truncf_apply, truncf_apply]
  exact congrArg _ (drop3 vv _ j c)

end Cert.KernelIdeal.AttnStep

end
-- ==== Proof.AttnAcc.lean ====
/-
  The attention kernel's output block at one grid point, on the extended reals.

  From the query block x0 (4096 rows of 64) define, for rows p and q,
      rowS p q = sum over d of x0[p, d] * x0[q, d]                                  (the Gram matrix of the block),
      wgt  p q = exp (rowS p q - M p) / (sum over q' of exp (rowS p q' - M p)),       M p the maximum of row p,
  the softmax of row p. Trip k of the body handles rows 128 k .. 128 k + 127: its scores are those rows of rowS, so its
  softmax rows are those rows of wgt, and it adds to entry (q, c) the sum over its 128 rows p of wgt p q * x1[p, c].
  Starting from zeros, after k trips entry (q, c) holds the sum over the first 128 k rows p; after all 32, over all 4096.
-/
import proofs.«169825_j55722905698498_1_alg».proof.Proof.AttnLoop
import proofs.«169825_j55722905698498_1_alg».proof.Proof.AttnStep

noncomputable section

namespace Cert.KernelIdeal.AttnAcc

open Cert.KernelIdeal Cert.KernelIdeal.Gen Idealize.ShloMosaic Idealize.ShloMosaic.ValueIdx
open Cert.KernelIdeal.AttnLoop Cert.KernelIdeal.AttnStep

/-- The loop makes 32 trips. -/
theorem trips_eq : k1_t1_loop.trips = 32 := by decide

/-- Row 128 k + j of the block: row j of trip k. -/
def pos (k : Fin k1_t1_loop.trips) (j : Fin 128) : Fin 4096 :=
  ⟨128 * k.val + j.val, by have hk : k.val < 32 := lt_of_lt_of_eq k.isLt trips_eq; have := j.isLt; omega⟩

theorem qrows_apply (x0 : Vec Ideal S1x4096x64 .f32) (k : Fin k1_t1_loop.trips) (j : Fin 128) (d : Fin 64) :
    qrows x0 k (ix3 0 j d) = x0 (ix3 0 (pos k j) d) := by
  unfold qrows
  show x0 ((Rect.unit (s := S1x4096x64) (k1_off1 k) S1x128x64.size (k1_off1_inb k)).idx (ix3 0 j d)) = _
  refine congrArg x0 (funext fun a => Fin.ext ?_)
  show k1_off1 k a + 1 * ((ix3 (0 : Fin 1) j d) a).val = _
  rw [k1_off1_eq]
  match a with
  | ⟨0, _⟩ => rfl
  | ⟨1, _⟩ => show 128 * k.val + 1 * j.val = 128 * k.val + j.val; omega
  | ⟨2, _⟩ => show 0 + 1 * d.val = d.val; omega

theorem vrows_apply (x1 : Vec Ideal S1x4096x256 .f32) (k : Fin k1_t1_loop.trips) (j : Fin 128) (c : Fin 256) :
    vrows x1 k (ix3 0 j c) = x1 (ix3 0 (pos k j) c) := by
  unfold vrows
  show x1 ((Rect.unit (s := S1x4096x256) (k1_off2 k) S1x128x256.size (k1_off2_inb k)).idx (ix3 0 j c)) = _
  refine congrArg x1 (funext fun a => Fin.ext ?_)
  show k1_off2 k a + 1 * ((ix3 (0 : Fin 1) j c) a).val = _
  rw [k1_off2_eq]
  match a with
  | ⟨0, _⟩ => rfl
  | ⟨1, _⟩ => show 128 * k.val + 1 * j.val = 128 * k.val + j.val; omega
  | ⟨2, _⟩ => show 0 + 1 * c.val = c.val; omega

/-! ## The block's Gram matrix and its row softmax -/

def rowS (x0 : Vec Ideal S1x4096x64 .f32) (p q : Fin 4096) : EReal := ∑ d : Fin 64, x0 (ix3 0 p d) * x0 (ix3 0 q d)

def rowM (x0 : Vec Ideal S1x4096x64 .f32) (p : Fin 4096) : EReal :=
  max Attn.ninf ((Finset.univ : Finset (Fin 4096)).fold max Attn.ninf (rowS x0 p))

def rowE (x0 : Vec Ideal S1x4096x64 .f32) (p q : Fin 4096) : EReal := Ideal.exp (rowS x0 p q - rowM x0 p)

def wgt (x0 : Vec Ideal S1x4096x64 .f32) (p q : Fin 4096) : EReal :=
  Ideal.div (rowE x0 p q) (∑ q' : Fin 4096, rowE x0 p q')

/-- Trip k's softmax rows are rows 128 k .. of the block's. -/
theorem soft_rows (x0 : Vec Ideal S1x4096x64 .f32) (k : Fin k1_t1_loop.trips) (j : Fin 128) (q : Fin 4096) :
    softV (scoresV x0 (qrows x0 k)) (ix2 j q) = wgt x0 (pos k j) q := by
  have hs : ∀ q', scoresV x0 (qrows x0 k) (ix2 j q') = rowS x0 (pos k j) q' := fun q' => by
    rw [scoresV_apply]; exact Finset.sum_congr rfl fun d _ => by rw [qrows_apply]
  have hm : rowMaxV (scoresV x0 (qrows x0 k)) (ix1 j) = rowM x0 (pos k j) := by
    rw [rowMaxV_apply]; unfold rowM
    exact congrArg (max _) (congrArg (Finset.fold max _ · _) (funext hs))
  have he : ∀ q', expV (scoresV x0 (qrows x0 k)) (ix2 j q') = rowE x0 (pos k j) q' := fun q' => by
    rw [expV_apply, hs, hm]; rfl
  rw [softV_apply, he]
  unfold wgt
  exact congrArg (Ideal.div _) (Finset.sum_congr rfl fun q' _ => he q')

/-! ## The running total -/

/-- Row p's contribution to entry (q, c). -/
def term (x0 : Vec Ideal S1x4096x64 .f32) (x1 : Vec Ideal S1x4096x256 .f32) (q : Fin 4096) (c : Fin 256) (p : Fin 4096) : EReal :=
  wgt x0 p q * x1 (ix3 0 p c)

theorem zero_apply (z : Fin 1) (q : Fin 4096) (c : Fin 256) : k1_pay1 (F := Ideal) (ix3 z q c) = 0 := by
  unfold k1_pay1
  refine (add3 _ _ z q c).trans ?_
  rw [broadcast_apply]
  exact Ideal.ofBits_zero_f32

/-- After k trips entry (q, c) holds the sum over the first 128 k rows. -/
theorem acc_apply (x0 : Vec Ideal S1x4096x64 .f32) (x1 : Vec Ideal S1x4096x256 .f32) (q : Fin 4096) (c : Fin 256) :
    ∀ k : ℕ, k ≤ 32 → ∀ z : Fin 1,
      acc (F := Ideal) x0 x1 k (ix3 z q c) = ∑ p ∈ Finset.range (128 * k), Attn.ext (term x0 x1 q c) p := by
  intro k
  induction k with
  | zero => intro _ z; rw [acc_zero, zero_apply]; simp
  | succ k ih =>
    intro hk z
    have h : k < k1_t1_loop.trips := by rw [trips_eq]; omega
    rw [acc_succ x0 x1 k h, step_apply, ih (by omega) 0, ← Attn.range_add_block]
    refine congrArg (_ + ·) (Finset.sum_congr rfl fun j _ => ?_)
    rw [soft_rows, vrows_apply]
    exact (Attn.ext_val (term x0 x1 q c) (pos ⟨k, h⟩ j)).symm

/-- After the loop: the whole sum. -/
theorem final_apply (x0 : Vec Ideal S1x4096x64 .f32) (x1 : Vec Ideal S1x4096x256 .f32) (z : Fin 1) (q : Fin 4096) (c : Fin 256) :
    acc (F := Ideal) x0 x1 k1_t1_loop.trips (ix3 z q c) = ∑ p : Fin 4096, wgt x0 p q * x1 (ix3 0 p c) := by
  rw [trips_eq, acc_apply x0 x1 q c 32 (le_refl _) z]
  exact (Attn.sum_eq_range (term x0 x1 q c)).symm

end Cert.KernelIdeal.AttnAcc

end
-- ==== Proof.AttnArr.lean ====
/-
  The attention pipeline's output array, as one function of the two arrays it reads.

  Grid point t handles image t: its query block is rows (t, *, *) of the query array, its value block rows (t, *, *) of
  the value array, and it writes back rows (t, *, *) of the output. The eight blocks tile the output array, so after
  the pipeline entry (n, q, c) of the output holds
      sum over p of  wgt_n p q * values[n, p, c],
  with wgt_n the row softmax of the Gram matrix of image n's queries.
-/
import proofs.«169825_j55722905698498_1_alg».proof.Proof.AttnAcc

set_option maxRecDepth 16384

noncomputable section

namespace Cert.KernelIdeal.AttnArr

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)
open Cert.KernelIdeal.AttnLoop Cert.KernelIdeal.AttnAcc

/-- Image n's query block, out of the query array. -/
def blkQ (Qa : S8x4096x64.Idx → EReal) (n : Fin 8) : Vec Ideal S1x4096x64 .f32 :=
  fun y => Qa (ix3 n ⟨(y 1).val, (y 1).isLt⟩ ⟨(y 2).val, (y 2).isLt⟩)

/-- Entry (n, q, c) of the output. -/
def attOut (Qa : S8x4096x64.Idx → EReal) (Va : S8x4096x256.Idx → EReal) (n : Fin 8) (q : Fin 4096) (c : Fin 256) : EReal :=
  ∑ p : Fin 4096, wgt (blkQ Qa n) p q * Va (ix3 n p c)

/-- The output array. -/
def G1 (Qa : S8x4096x64.Idx → EReal) (Va : S8x4096x256.Idx → EReal) : S8x4096x256.Idx → EReal :=
  fun i => attOut Qa Va ⟨(i 0).val, (i 0).isLt⟩ ⟨(i 1).val, (i 1).isLt⟩ ⟨(i 2).val, (i 2).isLt⟩

/-- The softmax weights depend on the query block only through its entries. -/
theorem wgt_congr (x0 x0' : Vec Ideal S1x4096x64 .f32) (h : ∀ (p : Fin 4096) (d : Fin 64), x0 (ix3 0 p d) = x0' (ix3 0 p d))
    (p q : Fin 4096) : wgt x0 p q = wgt x0' p q := by
  have hS : rowS x0 = rowS x0' := funext fun p => funext fun q => by
    unfold rowS; exact Finset.sum_congr rfl fun d _ => by rw [h, h]
  unfold wgt rowE rowM
  rw [hS]

/-- One grid point's output block, over blocks that are rows n of the two arrays. -/
theorem point_eq (x0 : Vec Ideal S1x4096x64 .f32) (x1 : Vec Ideal S1x4096x256 .f32)
    (Qa : S8x4096x64.Idx → EReal) (Va : S8x4096x256.Idx → EReal) (n : Fin 8)
    (h0 : ∀ (p : Fin 4096) (d : Fin 64), x0 (ix3 0 p d) = Qa (ix3 n p d))
    (h1 : ∀ (p : Fin 4096) (c : Fin 256), x1 (ix3 0 p c) = Va (ix3 n p c))
    (z : Fin 1) (q : Fin 4096) (c : Fin 256) :
    acc (F := Ideal) x0 x1 k1_t1_loop.trips (ix3 z q c) = attOut Qa Va n q c := by
  rw [final_apply]
  unfold attOut
  refine Finset.sum_congr rfl fun p _ => ?_
  rw [h1, wgt_congr x0 (blkQ Qa n) (fun p d => (h0 p d).trans rfl)]

variable (V : (c : Dev nD) → (b : Ref sig .tc) → Buf (Elt Ideal) ((c : Thread nD τ).loc b))

/-- The index maps over the grid: every window's block at point t is block (t, 0, 0). -/
theorem idx_facts : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 3) = t.val ∧ win1_2.index t (1 : Fin 3) = 0 ∧ win1_2.index t (2 : Fin 3) = 0
    ∧ t.val < 8 :=
  (by decide +kernel : ∀ t : Fin grid1.N, _)

/-- What point t writes back is block t of the output array. -/
theorem flushed_eq (c : Dev nD) (t : Fin cfg1.N) :
    (dat1 V c).flushed 2 t = ((cfg1.win 2).blk t).view.read (Elt Ideal) (G1 (V c main_v2) (V c main_v3)) := by
  show (cfg1.win 2).cut (grid1.coords t) ((dat1 V c).after 2 t) = _
  rw [after1_2]
  unfold outsAt1
  rw [out_eq]
  obtain ⟨e00, e01, e02, e10, e11, e12, e20, e21, e22, ht⟩ := idx_facts t
  funext y
  show acc (F := Ideal) (iblk1 V c 0 t) (iblk1 V c 1 t) k1_t1_loop.trips y = G1 (V c main_v2) (V c main_v3) (((cfg1.win 2).blk t).view.emb y)
  have hy : y = ix3 (y 0) (y 1) (y 2) := eq_ix3 y
  rw [hy]
  refine (point_eq _ _ (V c main_v2) (V c main_v3) ⟨t.val, ht⟩ ?_ ?_ (y 0) (y 1) (y 2)).trans ?_
  · intro p d
    show V c main_v2 (((cfg1.win 0).blk t).view.emb (ix3 0 p d)) = V c main_v2 (ix3 ⟨t.val, ht⟩ p d)
    refine congrArg (V c main_v2) (funext fun a => Fin.ext ?_)
    match a with
    | ⟨0, _⟩ => show win1_0.index t (0 : Fin 3) * 1 + 1 * 0 = t.val; omega
    | ⟨1, _⟩ => show win1_0.index t (1 : Fin 3) * 4096 + 1 * p.val = p.val; omega
    | ⟨2, _⟩ => show win1_0.index t (2 : Fin 3) * 64 + 1 * d.val = d.val; omega
  · intro p c'
    show V c main_v3 (((cfg1.win 1).blk t).view.emb (ix3 0 p c')) = V c main_v3 (ix3 ⟨t.val, ht⟩ p c')
    refine congrArg (V c main_v3) (funext fun a => Fin.ext ?_)
    match a with
    | ⟨0, _⟩ => show win1_1.index t (0 : Fin 3) * 1 + 1 * 0 = t.val; omega
    | ⟨1, _⟩ => show win1_1.index t (1 : Fin 3) * 4096 + 1 * p.val = p.val; omega
    | ⟨2, _⟩ => show win1_1.index t (2 : Fin 3) * 256 + 1 * c'.val = c'.val; omega
  · unfold G1
    have hz : (y 0).val = 0 := by have h1 : (y 0).val < 1 := (y 0).isLt; omega
    have a0 : ((((cfg1.win 2).blk t).view.emb (ix3 (y 0) (y 1) (y 2))) 0).val = t.val := by
      show win1_2.index t (0 : Fin 3) * 1 + 1 * (y 0).val = t.val; omega
    have a1 : ((((cfg1.win 2).blk t).view.emb (ix3 (y 0) (y 1) (y 2))) 1).val = (y 1).val := by
      show win1_2.index t (1 : Fin 3) * 4096 + 1 * (y 1).val = (y 1).val; omega
    have a2 : ((((cfg1.win 2).blk t).view.emb (ix3 (y 0) (y 1) (y 2))) 2).val = (y 2).val := by
      show win1_2.index t (2 : Fin 3) * 256 + 1 * (y 2).val = (y 2).val; omega
    exact congr (congr (congrArg (attOut (V c main_v2) (V c main_v3)) (Fin.ext a0.symm)) (Fin.ext a1.symm)) (Fin.ext a2.symm)

/-- An index of the output array is in point t's block iff its coordinates are in the block's ranges. -/
theorem mem_blk (t : Fin cfg1.N) (i : S8x4096x256.Idx) :
    i ∈ ((cfg1.win 2).blk t).view.set ↔ ∀ a : Fin 3, win1_2.index t a * S1x4096x256.size a ≤ (i a).val ∧ (i a).val < win1_2.index t a * S1x4096x256.size a + S1x4096x256.size a := by
  show i ∈ ((View.whole main_v4).slice (win1_2.rect t)).set ↔ _
  rw [View.set_slice_whole, Rect.mem_set_unit]
  exact Iff.rfl

/-- Every index of the output array is in some point's block: the point is the index's image. -/
theorem cover (i : S8x4096x256.Idx) :
    ∃ t : Fin cfg1.N, (cfg1.win 2).flush t = true ∧ i ∈ ((cfg1.win 2).blk t).view.set := by
  have hi0 : (i 0).val < 8 := (i 0).isLt
  have hi1 : (i 1).val < 4096 := (i 1).isLt
  have hi2 : (i 2).val < 256 := (i 2).isLt
  have hN : (i 0).val < cfg1.N := by show (i 0).val < grid1.N; rw [N_1]; exact hi0
  refine ⟨⟨(i 0).val, hN⟩, flush1_2 _, ?_⟩
  rw [mem_blk]
  obtain ⟨-, -, -, -, -, -, e20, e21, e22, -⟩ := idx_facts ⟨(i 0).val, hN⟩
  intro a
  match a with
  | ⟨0, _⟩ => show win1_2.index _ (0 : Fin 3) * 1 ≤ (i 0).val ∧ (i 0).val < win1_2.index _ (0 : Fin 3) * 1 + 1; rw [e20]; show (i 0).val * 1 ≤ (i 0).val ∧ (i 0).val < (i 0).val * 1 + 1; omega
  | ⟨1, _⟩ => show win1_2.index _ (1 : Fin 3) * 4096 ≤ (i 1).val ∧ (i 1).val < win1_2.index _ (1 : Fin 3) * 4096 + 4096; rw [e21]; omega
  | ⟨2, _⟩ => show win1_2.index _ (2 : Fin 3) * 256 ≤ (i 2).val ∧ (i 2).val < win1_2.index _ (2 : Fin 3) * 256 + 256; rw [e22]; omega

/-- The output array after the pipeline. -/
theorem final (c : Dev nD) : (dat1 V c).arrAt 2 cfg1.N = G1 (V c main_v2) (V c main_v3) :=
  (dat1 V c).arrAt_eq_of_cover 2 (G1 (V c main_v2) (V c main_v3)) (fun t _ => flushed_eq V c t) cover

end Cert.KernelIdeal.AttnArr

end
-- ==== Proof.KGlue.lean ====
/-
  The contents of the idealized kernel's buffers at each boundary of its run, in terms of the launch memory.

  Before the projection pipeline the feature map is reshaped to 32768 x 256; the pipeline leaves the projected array;
  it is reshaped to 8 x 4096 x 64 and the feature map to 8 x 4096 x 256; the attention pipeline leaves its output
  array; and the last stretch transposes it, reshapes it to 8 x 64 x 64 x 256, blends it with the third argument by the
  mask, and concatenates. No stretch and no pipeline writes an argument array.
-/
import proofs.«169825_j55722905698498_1_alg».proof.Proof.KRun
import proofs.«169825_j55722905698498_1_alg».proof.Proof.ProjArr
import proofs.«169825_j55722905698498_1_alg».proof.Proof.AttnArr
import Idealize.ShloMosaic.Lib.StableHlo.Run

set_option maxRecDepth 16384

noncomputable section

namespace Cert.KernelIdeal.KGlue

open Cert.KernelIdeal Cert.KernelIdeal.Gen
open Idealize.ShloMosaic Idealize.ShloMosaic.TcCoe Idealize.ShloMosaic.StableHlo
open Idealize.SL Idealize.SL.Sem

variable (m : (ℓ : Loc nD τ sig) → Buf (Elt Ideal) ℓ) (ρ : Dev nD → PrngReg)

/-- The tail of the program after the transpose, as a function of the mask, the third argument and the attention
    output with channels before positions: reshape to 8 x 64 x 64 x 256, blend with the third argument by the mask
    (mask * attention + (1 - mask) * third argument), and concatenate the blend with the reshaped attention output. -/
def tailT (a0 : FVec Ideal S8x64x64 .f32) (a2 : FVec Ideal S8x64x64x256 .f32) (t : FVec Ideal S8x256x4096 .f32) :
    FVec Ideal S8x64x64x512 .f32 :=
  concatenate S8x64x64x512 3
    [⟨S8x64x64x256,
        addf
          (mulf (broadcastInDim S8x64x64x256 ![0, 1, 2, 3] bcast_S8x64x64x1_S8x64x64x256_0_1_2_3
              (broadcastInDim S8x64x64x1 ![0, 1, 2] bcast_S8x64x64_S8x64x64x1_0_1_2 a0))
            (shapeCast S8x64x64x256 t shapeCasts_S8x256x4096_S8x64x64x256))
          (mulf (broadcastInDim S8x64x64x256 ![0, 1, 2, 3] bcast_S8x64x64x1_S8x64x64x256_0_1_2_3
              (subf (broadcastInDim S8x64x64x1 ![] bcast_S_S8x64x64x1 (constant (F := Ideal) S_ .f32 0x3F800000#32))
                (broadcastInDim S8x64x64x1 ![0, 1, 2] bcast_S8x64x64_S8x64x64x1_0_1_2 a0)))
            a2)⟩,
     ⟨S8x64x64x256, shapeCast S8x64x64x256 t shapeCasts_S8x256x4096_S8x64x64x256⟩]
    concatenates_S8x64x64x256_S8x64x64x256_S8x64x64x512_d3

/-- The tail of the program, from the attention pipeline's output array: the transpose first. -/
def tail (a0 : FVec Ideal S8x64x64 .f32) (a2 : FVec Ideal S8x64x64x256 .f32) (o : FVec Ideal S8x4096x256 .f32) :
    FVec Ideal S8x64x64x512 .f32 :=
  tailT a0 a2 (transpose S8x256x4096 [0, 2, 1] o transposes_S8x4096x256_S8x256x4096_0_2_1)

theorem V1_v0 (c : Dev nD) :
    (V1 m ρ c main_v0 : S32768x256.Idx → EReal)
      = shapeCast S32768x256 (m ((c : Thread nD τ).loc main_arg1)) shapeCasts_S8x64x64x256_S32768x256 := by
  show StableHlo.after hostOps0 (W0 m ρ c) (Proc.devRef .tc main_v0) = _
  after_results
  rfl

/-- No stretch before the projection writes an argument. -/
theorem W1_arg0 (c : Dev nD) : W1 m ρ c (Proc.devRef .tc main_arg0) = m ((c : Thread nD τ).loc main_arg0) := by
  show StableHlo.after hostOps0 (W0 m ρ c) (Proc.devRef .tc main_arg0) = _
  after_results
theorem W1_arg1 (c : Dev nD) : W1 m ρ c (Proc.devRef .tc main_arg1) = m ((c : Thread nD τ).loc main_arg1) := by
  show StableHlo.after hostOps0 (W0 m ρ c) (Proc.devRef .tc main_arg1) = _
  after_results
theorem W1_arg2 (c : Dev nD) : W1 m ρ c (Proc.devRef .tc main_arg2) = m ((c : Thread nD τ).loc main_arg2) := by
  show StableHlo.after hostOps0 (W0 m ρ c) (Proc.devRef .tc main_arg2) = _
  after_results
theorem V1_arg3 (c : Dev nD) : V1 m ρ c main_arg3 = m ((c : Thread nD τ).loc main_arg3) := by
  show StableHlo.after hostOps0 (W0 m ρ c) (Proc.devRef .tc main_arg3) = _
  after_results

/-- The projection pipeline leaves the projected array, and no argument changed. -/
theorem W2_v1 (c : Dev nD) :
    (W2 m ρ c (Proc.devRef .tc main_v1) : S32768x64.Idx → EReal)
      = ProjArr.G0 (shapeCast S32768x256 (m ((c : Thread nD τ).loc main_arg1)) shapeCasts_S8x64x64x256_S32768x256)
          (m ((c : Thread nD τ).loc main_arg3)) := by
  refine ((W2_arr m ρ c 2).trans (ProjArr.final (V1 m ρ) c)).trans ?_
  rw [V1_v0, V1_arg3]
theorem W2_arg0 (c : Dev nD) : W2 m ρ c (Proc.devRef .tc main_arg0) = m ((c : Thread nD τ).loc main_arg0) :=
  (W2_of_ne m ρ c main_arg0 (by decide)).trans (W1_arg0 m ρ c)
theorem W2_arg1 (c : Dev nD) : W2 m ρ c (Proc.devRef .tc main_arg1) = m ((c : Thread nD τ).loc main_arg1) :=
  (W2_of_ne m ρ c main_arg1 (by decide)).trans (W1_arg1 m ρ c)
theorem W2_arg2 (c : Dev nD) : W2 m ρ c (Proc.devRef .tc main_arg2) = m ((c : Thread nD τ).loc main_arg2) :=
  (W2_of_ne m ρ c main_arg2 (by decide)).trans (W1_arg2 m ρ c)

/-- The two reshapes before the attention pipeline. -/
theorem V3_v2 (c : Dev nD) :
    (V3 m ρ c main_v2 : S8x4096x64.Idx → EReal)
      = shapeCast S8x4096x64 (W2 m ρ c (Proc.devRef .tc main_v1) : S32768x64.Idx → EReal) shapeCasts_S32768x64_S8x4096x64 := by
  show StableHlo.after hostOps1 (W2 m ρ c) (Proc.devRef .tc main_v2) = _
  after_results; rfl
theorem V3_v3 (c : Dev nD) :
    (V3 m ρ c main_v3 : S8x4096x256.Idx → EReal)
      = shapeCast S8x4096x256 (m ((c : Thread nD τ).loc main_arg1)) shapeCasts_S8x64x64x256_S8x4096x256 := by
  have e : (V3 m ρ c main_v3 : S8x4096x256.Idx → EReal)
      = shapeCast S8x4096x256 (W2 m ρ c (Proc.devRef .tc main_arg1) : S8x64x64x256.Idx → EReal) shapeCasts_S8x64x64x256_S8x4096x256 := by
    show StableHlo.after hostOps1 (W2 m ρ c) (Proc.devRef .tc main_v3) = _
    after_results; rfl
  rw [e, W2_arg1]
theorem W3_arg0 (c : Dev nD) : W3 m ρ c (Proc.devRef .tc main_arg0) = m ((c : Thread nD τ).loc main_arg0) := by
  refine Eq.trans ?_ (W2_arg0 m ρ c)
  show StableHlo.after hostOps1 (W2 m ρ c) (Proc.devRef .tc main_arg0) = _
  after_results
theorem W3_arg2 (c : Dev nD) : W3 m ρ c (Proc.devRef .tc main_arg2) = m ((c : Thread nD τ).loc main_arg2) := by
  refine Eq.trans ?_ (W2_arg2 m ρ c)
  show StableHlo.after hostOps1 (W2 m ρ c) (Proc.devRef .tc main_arg2) = _
  after_results

/-- The attention pipeline leaves its output array, and the mask and the third argument did not change. -/
theorem W4_v4 (c : Dev nD) :
    (W4 m ρ c (Proc.devRef .tc main_v4) : S8x4096x256.Idx → EReal)
      = AttnArr.G1
          (shapeCast S8x4096x64
            (ProjArr.G0 (shapeCast S32768x256 (m ((c : Thread nD τ).loc main_arg1)) shapeCasts_S8x64x64x256_S32768x256)
              (m ((c : Thread nD τ).loc main_arg3)))
            shapeCasts_S32768x64_S8x4096x64)
          (shapeCast S8x4096x256 (m ((c : Thread nD τ).loc main_arg1)) shapeCasts_S8x64x64x256_S8x4096x256) := by
  refine ((W4_arr m ρ c 2).trans (AttnArr.final (V3 m ρ) c)).trans ?_
  rw [V3_v2, V3_v3, W2_v1]
theorem W4_arg0 (c : Dev nD) : W4 m ρ c (Proc.devRef .tc main_arg0) = m ((c : Thread nD τ).loc main_arg0) :=
  (W4_of_ne m ρ c main_arg0 (by decide)).trans (W3_arg0 m ρ c)
theorem W4_arg2 (c : Dev nD) : W4 m ρ c (Proc.devRef .tc main_arg2) = m ((c : Thread nD τ).loc main_arg2) :=
  (W4_of_ne m ρ c main_arg2 (by decide)).trans (W3_arg2 m ρ c)

/-- The result array: the tail of the mask, the third argument and the attention output. -/
theorem W5_v15 (c : Dev nD) :
    (W5 m ρ c (Proc.devRef .tc main_v15) : S8x64x64x512.Idx → EReal)
      = tail (m ((c : Thread nD τ).loc main_arg0)) (m ((c : Thread nD τ).loc main_arg2))
          (W4 m ρ c (Proc.devRef .tc main_v4) : S8x4096x256.Idx → EReal) := by
  have e : (W5 m ρ c (Proc.devRef .tc main_v15) : S8x64x64x512.Idx → EReal)
      = tail (W4 m ρ c (Proc.devRef .tc main_arg0)) (W4 m ρ c (Proc.devRef .tc main_arg2))
          (W4 m ρ c (Proc.devRef .tc main_v4) : S8x4096x256.Idx → EReal) := by
    show StableHlo.after hostOps2 (W4 m ρ c) (Proc.devRef .tc main_v15) = _
    after_results; rfl
  rw [e, W4_arg0, W4_arg2]

end Cert.KernelIdeal.KGlue

end
-- ==== Proof.KBridge.lean ====
/-
  The kernel's arrays are the specification's.

  Reading the three reshapes by row-major position (pixel p of image n is row 4096 n + p of the flat pixel array, and
  is row p / 64, column p % 64 of its image), the projected array read as 8 x 4096 x 64 is the specification's query,
  the Gram matrix of image n's query block is the specification's, so are its row softmax weights, and the attention
  pipeline's output, transposed to put channels before positions, is the specification's transposed attention output.
  The one algebraic step is commuting the two factors of each product.
-/
import proofs.«169825_j55722905698498_1_alg».proof.Proof.ProjArr
import proofs.«169825_j55722905698498_1_alg».proof.Proof.AttnArr
import proofs.«169825_j55722905698498_1_alg».proof.Proof.Spec

noncomputable section

namespace Cert.KernelIdeal.KBridge

open Cert.KernelIdeal Cert.KernelIdeal.Gen Idealize.ShloMosaic Idealize.ShloMosaic.ValueIdx
open Attn Cert.KernelIdeal.AttnAcc Cert.KernelIdeal.AttnArr

variable (a1 : FVec Ideal S8x64x64x256 .f32) (a3 : FVec Ideal S256x64 .f32)

/-- The pixels as a flat 32768 x 256 array, the projected queries as 8 x 4096 x 64, the pixels as 8 x 4096 x 256. -/
def Xflat : S32768x256.Idx → EReal := shapeCast S32768x256 a1 shapeCasts_S8x64x64x256_S32768x256
def Qarr : S8x4096x64.Idx → EReal := shapeCast S8x4096x64 (ProjArr.G0 (Xflat a1) a3) shapeCasts_S32768x64_S8x4096x64
def Varr : S8x4096x256.Idx → EReal := shapeCast S8x4096x256 a1 shapeCasts_S8x64x64x256_S8x4096x256

/-- Row 4096 n + p of the flat arrays. -/
def flatRow (n : Fin 8) (p : Fin 4096) : Fin 32768 := ⟨4096 * n.val + p.val, by have := n.isLt; have := p.isLt; omega⟩

theorem Varr_apply (n : Fin 8) (p : Fin 4096) (c : Fin 256) : Varr a1 (ix3 n p c) = pix a1 n p c := by
  unfold Varr pix
  refine shapeCast_apply _ _ (ix3 n p c) (ix4 n (prow p) (pcol p) c) ?_
  rw [Shape.rowMajor_val_four, Shape.rowMajor_val_three]
  show ((n.val * 64 + p.val / 64) * 64 + p.val % 64) * 256 + c.val = (n.val * 4096 + p.val) * 256 + c.val
  have := p.isLt; omega

theorem Xflat_apply (n : Fin 8) (p : Fin 4096) (k : Fin 256) : Xflat a1 (ix2 (flatRow n p) k) = pix a1 n p k := by
  unfold Xflat pix
  refine shapeCast_apply _ _ (ix2 (flatRow n p) k) (ix4 n (prow p) (pcol p) k) ?_
  rw [Shape.rowMajor_val_four, Shape.rowMajor_val_two]
  show ((n.val * 64 + p.val / 64) * 64 + p.val % 64) * 256 + k.val = (4096 * n.val + p.val) * 256 + k.val
  have := p.isLt; omega

theorem Qarr_apply (n : Fin 8) (p : Fin 4096) (d : Fin 64) : Qarr a1 a3 (ix3 n p d) = qry a1 a3 n p d := by
  unfold Qarr
  refine (shapeCast_apply _ _ (ix3 n p d) (ix2 (flatRow n p) d) ?_).trans ?_
  · rw [Shape.rowMajor_val_two, Shape.rowMajor_val_three]
    show (4096 * n.val + p.val) * 64 + d.val = (n.val * 4096 + p.val) * 64 + d.val
    omega
  · show ProjArr.projOut (Xflat a1) a3 (flatRow n p) d = _
    unfold ProjArr.projOut qry
    exact Finset.sum_congr rfl fun k _ => by rw [Xflat_apply]

/-- The Gram matrix of image n's query block is the specification's. -/
theorem rowS_eq (n : Fin 8) : rowS (blkQ (Qarr a1 a3) n) = gram a1 a3 n := by
  funext p q
  unfold rowS gram
  refine Finset.sum_congr rfl fun d _ => ?_
  show Qarr a1 a3 (ix3 n p d) * Qarr a1 a3 (ix3 n q d) = _
  rw [Qarr_apply, Qarr_apply]

/-- So are its row softmax weights. -/
theorem wgt_eq (n : Fin 8) (p q : Fin 4096) : wgt (blkQ (Qarr a1 a3) n) p q = att a1 a3 n p q := by
  unfold wgt rowE rowM att ex rmax
  rw [rowS_eq]

/-- The attention output, channels before positions. -/
theorem attT_eq :
    transpose S8x256x4096 [0, 2, 1] (G1 (Qarr a1 a3) (Varr a1)) transposes_S8x4096x256_S8x256x4096_0_2_1 = attT a1 a3 := by
  funext i
  obtain ⟨n, c, q, rfl⟩ : ∃ (n : Fin 8) (c : Fin 256) (q : Fin 4096), i = ix3 n c q := ⟨i 0, i 1, i 2, eq_ix3 i⟩
  refine (transpose_apply [0, 2, 1] _ _ (ix3 n c q) (ix3 n q c) ?_).trans ?_
  · intro b
    match b with
    | ⟨0, _⟩ => rfl
    | ⟨1, _⟩ => rfl
    | ⟨2, _⟩ => rfl
  · show attOut (Qarr a1 a3) (Varr a1) n q c = _
    unfold attOut attT
    refine Finset.sum_congr rfl fun p _ => ?_
    rw [wgt_eq, Varr_apply]
    exact mul_comm _ _

end Cert.KernelIdeal.KBridge

end
-- ==== Proof.RefValue.lean ====
/-
  The reference's stage %16, read index by index, is the specification's transposed attention output:
  at (n, c, q) it is the sum over positions p of x[n, p, c] * att n p q, where p = 64 h + w runs over the pixels of
  image n in row-major order. The lemmas follow the reference's operations from the inputs outward: a pixel's channel
  through the reshape and the transpose; the projected query; an entry of the Gram matrix; the row maximum, a fold of
  max from minus infinity joined with minus infinity once more; the shifted exponential; the row sum, which starts
  from the zero word (the extended real 0); the quotient; and last the product summed over positions.
-/
import proofs.«169825_j55722905698498_1_alg».proof.Proof.RefReadP
import proofs.«169825_j55722905698498_1_alg».proof.Proof.Spec

noncomputable section

namespace Cert.ReferenceIdeal.RefValue

open Cert.ReferenceIdeal Cert.ReferenceIdeal.ReadP Idealize.ShloMosaic Idealize.ShloMosaic.ValueIdx Attn

/-- Channel c of pixel p of image n, read through the reshape to 4096 positions and the transpose that puts
    channels before positions: position p = 64 h + w is row h = p / 64, column w = p % 64. -/
theorem pix_at (x1 : (⟨S8x64x64x256, .f32⟩ : BufTy).Contents (Elt Ideal)) (n : Fin 8) (c : Fin 256) (q p : Fin 4096) :
    val_main_v15 (F := Ideal) x1 (lidx_main_v16 (ix3 n c q) p) = pix x1 n p c := by
  rw [val_main_v15_apply, val_main_v14_apply]
  unfold pix
  refine congrArg x1 (funext fun a => Fin.ext ?_)
  have hn := n.isLt; have hp := p.isLt; have hc := c.isLt
  match a with
  | ⟨0, _⟩ => show ((n.val * 4096 + p.val) * 256 + c.val) / 1048576 = n.val; omega
  | ⟨1, _⟩ => show ((n.val * 4096 + p.val) * 256 + c.val) / 16384 % 64 = p.val / 64; omega
  | ⟨2, _⟩ => show ((n.val * 4096 + p.val) * 256 + c.val) / 256 % 64 = p.val % 64; omega
  | ⟨3, _⟩ => show ((n.val * 4096 + p.val) * 256 + c.val) % 256 = c.val; omega

/-- The projected query of pixel p, read through the reshape of the projection's result to 4096 positions. -/
theorem qry_at (x1 : (⟨S8x64x64x256, .f32⟩ : BufTy).Contents (Elt Ideal)) (x3 : (⟨S256x64, .f32⟩ : BufTy).Contents (Elt Ideal))
    (n : Fin 8) (p : Fin 4096) (d : Fin 64) :
    val_main_v1 (F := Ideal) x1 x3 (ix3 n p d) = qry x1 x3 n p d := by
  rw [val_main_v1_apply, val_main_v0_apply]
  unfold qry pix
  refine Finset.sum_congr rfl fun k _ => ?_
  have hn := n.isLt; have hp := p.isLt; have hd := d.isLt
  have el : lidx_main_v0 (idx_main_v1 (ix3 n p d)) k = ix4 n (prow p) (pcol p) k := funext fun a => Fin.ext (by
    match a with
    | ⟨0, _⟩ => show ((n.val * 4096 + p.val) * 64 + d.val) / 262144 = n.val; omega
    | ⟨1, _⟩ => show ((n.val * 4096 + p.val) * 64 + d.val) / 4096 % 64 = p.val / 64; omega
    | ⟨2, _⟩ => show ((n.val * 4096 + p.val) * 64 + d.val) / 64 % 64 = p.val % 64; omega
    | ⟨3, _⟩ => rfl)
  have er : ridx_main_v0 (idx_main_v1 (ix3 n p d)) k = ix2 k d := funext fun a => Fin.ext (by
    match a with
    | ⟨0, _⟩ => rfl
    | ⟨1, _⟩ => show ((n.val * 4096 + p.val) * 64 + d.val) % 64 = d.val; omega)
  rw [el, er]

/-- An entry of the Gram matrix of the queries. -/
theorem gram_at (x1 : (⟨S8x64x64x256, .f32⟩ : BufTy).Contents (Elt Ideal)) (x3 : (⟨S256x64, .f32⟩ : BufTy).Contents (Elt Ideal))
    (n : Fin 8) (p q : Fin 4096) :
    val_main_v2 (F := Ideal) x1 x3 (ix3 n p q) = gram x1 x3 n p q := by
  rw [val_main_v2_apply]
  unfold gram
  refine Finset.sum_congr rfl fun k _ => ?_
  have el : lidx_main_v2 (ix3 n p q) k = ix3 n p k := funext fun a => Fin.ext (by
    match a with | ⟨0, _⟩ => rfl | ⟨1, _⟩ => rfl | ⟨2, _⟩ => rfl)
  have er : ridx_main_v2 (ix3 n p q) k = ix3 n q k := funext fun a => Fin.ext (by
    match a with | ⟨0, _⟩ => rfl | ⟨1, _⟩ => rfl | ⟨2, _⟩ => rfl)
  rw [el, er, qry_at, qry_at]

/-- The reduction's shape fact in the form that names the inserted coordinate. -/
theorem red_row : S8x4096x4096.Reduces [2] S8x4096 := by decide

/-- The row maximum as the reference takes it: the fold of max from minus infinity over row p of the Gram matrix. -/
theorem rowmax_at (x1 : (⟨S8x64x64x256, .f32⟩ : BufTy).Contents (Elt Ideal)) (x3 : (⟨S256x64, .f32⟩ : BufTy).Contents (Elt Ideal))
    (n : Fin 8) (p : Fin 4096) :
    val_main_v3 (F := Ideal) x1 x3 (ix2 n p) = (Finset.univ : Finset (Fin 4096)).fold max ninf (gram x1 x3 n p) := by
  have hf : ∀ k : Fin 4096, val_main_v2 (F := Ideal) x1 x3 (red_row.lift (ix2 n p) k) = gram x1 x3 n p k := fun k => by
    have hk : red_row.lift (ix2 n p) k = ix3 n p k := funext fun a => Fin.ext (by
      match a with | ⟨0, _⟩ => rfl | ⟨1, _⟩ => rfl | ⟨2, _⟩ => rfl)
    rw [hk, gram_at]
  unfold val_main_v3
  refine (Host.reduce_eq_fold_single FloatOps.maximumf _ _ _ red_row _ (ix2 n p)).trans ?_
  exact congrArg (fun g : Fin 4096 → EReal => Finset.fold max ninf g Finset.univ) (funext hf)

/-- The row maximum joined with minus infinity once more, as both programs take it. -/
theorem rmax_at (x1 : (⟨S8x64x64x256, .f32⟩ : BufTy).Contents (Elt Ideal)) (x3 : (⟨S256x64, .f32⟩ : BufTy).Contents (Elt Ideal))
    (n : Fin 8) (p : Fin 4096) :
    val_main_v5 (F := Ideal) x1 x3 (ix2 n p) = rmax x1 x3 n p := by
  rw [val_main_v5_apply, val_main_v4_apply, val_main_cst_0_apply, rowmax_at]
  rfl

/-- The row maximum broadcast along its row. -/
theorem rmax_bcast_at (x1 : (⟨S8x64x64x256, .f32⟩ : BufTy).Contents (Elt Ideal)) (x3 : (⟨S256x64, .f32⟩ : BufTy).Contents (Elt Ideal))
    (n : Fin 8) (p q : Fin 4096) :
    val_main_v7 (F := Ideal) x1 x3 (ix3 n p q) = rmax x1 x3 n p := by
  have hi : idx_main_v6 (idx_main_v7 (ix3 n p q)) = ix2 n p := funext fun a => Fin.ext (by
    match a with | ⟨0, _⟩ => rfl | ⟨1, _⟩ => rfl)
  rw [val_main_v7_apply, val_main_v6_apply, hi, rmax_at]

/-- The shifted exponential. -/
theorem ex_at (x1 : (⟨S8x64x64x256, .f32⟩ : BufTy).Contents (Elt Ideal)) (x3 : (⟨S256x64, .f32⟩ : BufTy).Contents (Elt Ideal))
    (n : Fin 8) (p q : Fin 4096) :
    val_main_v9 (F := Ideal) x1 x3 (ix3 n p q) = ex x1 x3 n p q := by
  rw [val_main_v9_apply, val_main_v8_apply, gram_at, rmax_bcast_at, Ideal.subf_def, Ideal.hostUnary_exp_def]
  rfl

/-- The row sum of the exponentials: the float sum starts from the zero word, which is the extended real 0. -/
theorem rowsum_at (x1 : (⟨S8x64x64x256, .f32⟩ : BufTy).Contents (Elt Ideal)) (x3 : (⟨S256x64, .f32⟩ : BufTy).Contents (Elt Ideal))
    (n : Fin 8) (p : Fin 4096) :
    val_main_v10 (F := Ideal) x1 x3 (ix2 n p) = ∑ q' : Fin 4096, ex x1 x3 n p q' := by
  rw [val_main_v10_apply, val_main_cst_1_apply, Ideal.ofBits_def, Ideal.ofBits_zero_f32, zero_add]
  refine Finset.sum_congr rfl fun k _ => ?_
  have hi : idx_main_v10 (ix2 n p) k = ix3 n p k := funext fun a => Fin.ext (by
    match a with | ⟨0, _⟩ => rfl | ⟨1, _⟩ => rfl | ⟨2, _⟩ => rfl)
  rw [hi, ex_at]

/-- The row sum broadcast along its row. -/
theorem rowsum_bcast_at (x1 : (⟨S8x64x64x256, .f32⟩ : BufTy).Contents (Elt Ideal)) (x3 : (⟨S256x64, .f32⟩ : BufTy).Contents (Elt Ideal))
    (n : Fin 8) (p q : Fin 4096) :
    val_main_v12 (F := Ideal) x1 x3 (ix3 n p q) = ∑ q' : Fin 4096, ex x1 x3 n p q' := by
  have hi : idx_main_v11 (idx_main_v12 (ix3 n p q)) = ix2 n p := funext fun a => Fin.ext (by
    match a with | ⟨0, _⟩ => rfl | ⟨1, _⟩ => rfl)
  rw [val_main_v12_apply, val_main_v11_apply, hi, rowsum_at]

/-- An entry of the attention map: the softmax of row p of the Gram matrix at q. -/
theorem att_at (x1 : (⟨S8x64x64x256, .f32⟩ : BufTy).Contents (Elt Ideal)) (x3 : (⟨S256x64, .f32⟩ : BufTy).Contents (Elt Ideal))
    (n : Fin 8) (p q : Fin 4096) :
    val_main_v13 (F := Ideal) x1 x3 (ix3 n p q) = att x1 x3 n p q := by
  rw [val_main_v13_apply, ex_at, rowsum_bcast_at, Ideal.hostDivf_def]
  rfl

/-- The reference's transposed attention output is the specification's: at (n, c, q) the sum over positions p of
    channel c of pixel p times the attention of p to q. -/
theorem v16_eq (x1 : (⟨Cert.ReferenceIdeal.S8x64x64x256, .f32⟩ : BufTy).Contents (Elt Ideal)) (x3 : (⟨Cert.ReferenceIdeal.S256x64, .f32⟩ : BufTy).Contents (Elt Ideal)) :
    Cert.ReferenceIdeal.ReadP.val_main_v16 (F := Ideal) x1 x3 = Attn.attT x1 x3 := by
  funext i
  obtain ⟨n, c, q, rfl⟩ : ∃ (n : Fin 8) (c : Fin 256) (q : Fin 4096), i = ix3 n c q := ⟨i 0, i 1, i 2, eq_ix3 i⟩
  rw [val_main_v16_apply]
  unfold attT
  refine Finset.sum_congr rfl fun p _ => ?_
  have hr : ridx_main_v16 (ix3 n c q) p = ix3 n p q := funext fun a => Fin.ext (by
    match a with | ⟨0, _⟩ => rfl | ⟨1, _⟩ => rfl | ⟨2, _⟩ => rfl)
  rw [pix_at, hr, att_at]

end Cert.ReferenceIdeal.RefValue

end
-- ==== Proof.lean ====
/-
  The certificate: the attention kernel and its reference are one function on the extended reals.

  Both programs compute, from a feature map x (8 images of 4096 pixels with 256 channels), a projection w to 64
  channels, a mask and a second feature map: the queries x w; per image the Gram matrix of the queries and its row
  softmax; the attention output  sum over p of x[n, p, c] * att n p q  with channels before positions; its reshape to
  8 x 64 x 64 x 256; the blend  mask * attention + (1 - mask) * second map; and the concatenation of the blend with the
  reshaped attention output. The reference does this in whole-array operations. The kernel projects in a pipeline of 8
  blocks, and computes the attention output in a pipeline of one image per grid point whose body loops over 32 chunks of
  128 rows of the Gram matrix, taking the softmax of each whole row and adding the chunk's weighted values into an
  output block it first sets to zero. The two agree because a sum over 4096 positions taken in 32 blocks from zero is
  the whole sum, and a product may be taken in either order; neither needs the inputs to be finite. The changes of
  float format in the kernel are the identity on the extended reals, so nothing was rewritten in the idealized kernel
  and there is nothing to preserve.
-/
import proofs.«169825_j55722905698498_1_alg».proof.Defs
import proofs.«169825_j55722905698498_1_alg».proof.Proof.Gen.Kernel
import proofs.«169825_j55722905698498_1_alg».proof.Proof.Gen.Kernel.Skeleton
import proofs.«169825_j55722905698498_1_alg».proof.Proof.Gen.Kernel.Loops
import proofs.«169825_j55722905698498_1_alg».proof.Proof.Gen.Kernel.Launch
import proofs.«169825_j55722905698498_1_alg».proof.Proof.Gen.Kernel.Points
import proofs.«169825_j55722905698498_1_alg».proof.Proof.Gen.Kernel.Frame
import proofs.«169825_j55722905698498_1_alg».proof.Proof.Gen.KernelIdeal
import proofs.«169825_j55722905698498_1_alg».proof.Proof.Gen.KernelIdeal.Skeleton
import proofs.«169825_j55722905698498_1_alg».proof.Proof.Gen.KernelIdeal.Loops
import proofs.«169825_j55722905698498_1_alg».proof.Proof.Gen.KernelIdeal.Launch
import proofs.«169825_j55722905698498_1_alg».proof.Proof.Gen.KernelIdeal.Points
import proofs.«169825_j55722905698498_1_alg».proof.Proof.Gen.KernelIdeal.Frame
import proofs.«169825_j55722905698498_1_alg».proof.Proof.Gen.ReferenceIdeal
import proofs.«169825_j55722905698498_1_alg».proof.Proof.Gen.Pre_finite_inputs
import proofs.«169825_j55722905698498_1_alg».proof.Proof.KRun
import proofs.«169825_j55722905698498_1_alg».proof.Proof.KGlue
import proofs.«169825_j55722905698498_1_alg».proof.Proof.KBridge
import proofs.«169825_j55722905698498_1_alg».proof.Proof.RefReadP
import proofs.«169825_j55722905698498_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-! ## The kernel's result, and the reference's, as the tail of the attention output -/

/-- The idealized kernel's result array: the tail of the specification's transposed attention output. -/
theorem kernel_result (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    (Cert.KernelIdeal.Gen.W5 m ρ c (Proc.devRef .tc Cert.KernelIdeal.main_v15) : Cert.KernelIdeal.S8x64x64x512.Idx → EReal)
      = Cert.KernelIdeal.KGlue.tailT
          (m ((c : Thread Cert.KernelIdeal.nD Cert.KernelIdeal.τ).loc Cert.KernelIdeal.main_arg0))
          (m ((c : Thread Cert.KernelIdeal.nD Cert.KernelIdeal.τ).loc Cert.KernelIdeal.main_arg2))
          (Attn.attT (m ((c : Thread Cert.KernelIdeal.nD Cert.KernelIdeal.τ).loc Cert.KernelIdeal.main_arg1))
            (m ((c : Thread Cert.KernelIdeal.nD Cert.KernelIdeal.τ).loc Cert.KernelIdeal.main_arg3))) := by
  rw [Cert.KernelIdeal.KGlue.W5_v15, Cert.KernelIdeal.KGlue.W4_v4]
  unfold Cert.KernelIdeal.KGlue.tail
  exact congrArg (Cert.KernelIdeal.KGlue.tailT _ _) (Cert.KernelIdeal.KBridge.attT_eq _ _)

/-- The reference's result: the same tail of its own transposed attention output. -/
theorem ref_result (x0 : (⟨Cert.ReferenceIdeal.S8x64x64, .f32⟩ : BufTy).Contents (Elt Ideal))
    (x1 x2 : (⟨Cert.ReferenceIdeal.S8x64x64x256, .f32⟩ : BufTy).Contents (Elt Ideal))
    (x3 : (⟨Cert.ReferenceIdeal.S256x64, .f32⟩ : BufTy).Contents (Elt Ideal)) :
    Cert.ReferenceIdeal.ReadP.val_main_v26 (F := Ideal) x0 x1 x2 x3
      = Cert.KernelIdeal.KGlue.tailT x0 x2 (Cert.ReferenceIdeal.ReadP.val_main_v16 (F := Ideal) x1 x3) := by
  unfold Cert.ReferenceIdeal.ReadP.val_main_v26 Cert.ReferenceIdeal.ReadP.val_main_v25 Cert.ReferenceIdeal.ReadP.val_main_v24
    Cert.ReferenceIdeal.ReadP.val_main_v23 Cert.ReferenceIdeal.ReadP.val_main_v22 Cert.ReferenceIdeal.ReadP.val_main_v21
    Cert.ReferenceIdeal.ReadP.val_main_cst_2 Cert.ReferenceIdeal.ReadP.val_main_v20 Cert.ReferenceIdeal.ReadP.val_main_v19
    Cert.ReferenceIdeal.ReadP.val_main_v18 Cert.ReferenceIdeal.ReadP.val_main_v17 Cert.KernelIdeal.KGlue.tailT
  rfl

/-! ## The claims -/

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- At the extended reals both programs end with the tail of the specification's transposed attention output of
    arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.KGlue.tailT
      (m ((c : Thread Cert.KernelIdeal.nD Cert.KernelIdeal.τ).loc Cert.KernelIdeal.main_arg0))
      (m ((c : Thread Cert.KernelIdeal.nD Cert.KernelIdeal.τ).loc Cert.KernelIdeal.main_arg2))
      (Attn.attT (m ((c : Thread Cert.KernelIdeal.nD Cert.KernelIdeal.τ).loc Cert.KernelIdeal.main_arg1))
        (m ((c : Thread Cert.KernelIdeal.nD Cert.KernelIdeal.τ).loc Cert.KernelIdeal.main_arg3))), ?_, ?_⟩
  · exact (θ_run Cert.KernelIdeal.defs _ _).mono (fun r h c => ⟨(h c).1.trans (kernel_result m ρ c), (h c).2⟩)
      (Cert.KernelIdeal.Run.run_result (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v26_eq, ref_result, Cert.ReferenceIdeal.RefValue.v16_eq,
      (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
